-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S1000000 : Shape := ⟨1, ![1000000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128 .f32) (main_arg10 : FVec F S128x1 .f32) (main_arg11 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg10
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : FVec F S50000x128 .f32) (main_arg2 : IVec S1000000 32) (main_arg3 : IVec S1000000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S50000x128 : Shape := ⟨2, ![50000, 128]⟩
abbrev S1000000 : Shape := ⟨1, ![1000000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S5000x128 : Shape := ⟨2, ![5000, 128]⟩
abbrev S_ : Shape := ⟨0, ![]⟩
abbrev S1000000x1 : Shape := ⟨2, ![1000000, 1]⟩
abbrev S1000000x128 : Shape := ⟨2, ![1000000, 128]⟩
abbrev S4096x128 : Shape := ⟨2, ![4096, 128]⟩

abbrev nBuf : Space → Nat
  | .hbm => 44
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S1000000, .i32⟩
  | .hbm, ⟨3, _⟩ => ⟨S1000000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x128, .f32⟩
  | .hbm, ⟨13, _⟩ => ⟨S100000x128, .f32⟩
  | .hbm, ⟨14, _⟩ => ⟨S1x128, .f32⟩
  | .hbm, ⟨15, _⟩ => ⟨S50000x128, .f32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x128, .f32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S1000000x1, .i32⟩
  | .hbm, ⟨33, _⟩ => ⟨S1000000x128, .f32⟩
  | .hbm, ⟨34, _⟩ => ⟨S1x128, .f32⟩
  | .hbm, ⟨35, _⟩ => ⟨S_, .i32⟩
  | .hbm, ⟨36, _⟩ => ⟨S_, .f32⟩
  | .hbm, ⟨37, _⟩ => ⟨S128x128, .f32⟩
  | .hbm, ⟨38, _⟩ => ⟨S_, .i32⟩
  | .hbm, ⟨39, _⟩ => ⟨S_, .f32⟩
  | .hbm, ⟨40, _⟩ => ⟨S128, .f32⟩
  | .hbm, ⟨41, _⟩ => ⟨S1x128, .f32⟩
  | .hbm, ⟨42, _⟩ => ⟨S1000000x128, .f32⟩
  | .hbm, ⟨43, _⟩ => ⟨S1000000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S4096x128, .f32⟩
  | .local _ .vmem, ⟨21, _⟩ => ⟨S4096x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_call0_v0 : Ref sig .tc := ⟨.hbm, 36, rfl⟩
abbrev main_v19 : Ref sig .tc := ⟨.hbm, 37, rfl⟩
abbrev main_c_4 : Ref sig .tc := ⟨.hbm, 38, rfl⟩
abbrev main_call1_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![245], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4096x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  pads_S128x1_S128x128_000_01270 : S128x1.Pads (![0, 0] : Fin 2 → Nat) ![0, 127] ![0, 0] S128x128
  h_S_ : 0 < S_.numel
  pads_S1_S128_01270 : S1.Pads (![0] : Fin 1 → Nat) ![127] ![0] S128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S1x128_S4096x128 : S1x128.Broadcasts S4096x128
  shapeCasts_S128x128_S128x128 : S128x128.ShapeCasts S128x128
  slices_S1000000x128_S1000000x1_0_0 : S1000000x128.Slices ![0, 0] S1000000x1
  dot_S5000x128_S128x128_S5000x128_1_0_0_1_n_n_wf : DotDims.WF S5000x128 S128x128 S5000x128 [1] [0] [0] [1] [] []
  gather_S100000x128_S1000000x1_S1000000x128_1_0_n_n_0_1_1128_wf : GatherDims.WF S100000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S4096x128.size a < S1000000x128.size a
  hwx2_0 : ∀ i : grid2.Coords, EltTy.bits .f32 = 32 ∨ (Rect.unit (s := S1000000x128) (fun a => cc2_transform_0 i a * S4096x128.size a) (fun a => (Pipeline.Clip.of (cc2_transform_0 i a) (S4096x128.size a) (S1000000x128.size a)).extent (S4096x128.size a)) fun a => Pipeline.Clip.inb (Pipeline.Clip.ok_of (hstart2_0 i a))).WholeWords (EltTy.packing .f32)
  hwxs2_0 : ∀ i : grid2.Coords, EltTy.bits .f32 = 32 ∨ (Rect.unit (s := S4096x128) (fun _ => 0) (fun a => (Pipeline.Clip.of (cc2_transform_0 i a) (S4096x128.size a) (S1000000x128.size a)).extent (S4096x128.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S4096x128.size a < S1000000x128.size a
  hwx2_1 : ∀ i : grid2.Coords, EltTy.bits .f32 = 32 ∨ (Rect.unit (s := S1000000x128) (fun a => cc2_transform_1 i a * S4096x128.size a) (fun a => (Pipeline.Clip.of (cc2_transform_1 i a) (S4096x128.size a) (S1000000x128.size a)).extent (S4096x128.size a)) fun a => Pipeline.Clip.inb (Pipeline.Clip.ok_of (hstart2_1 i a))).WholeWords (EltTy.packing .f32)
  hwxs2_1 : ∀ i : grid2.Coords, EltTy.bits .f32 = 32 ∨ (Rect.unit (s := S4096x128) (fun _ => 0) (fun a => (Pipeline.Clip.of (cc2_transform_1 i a) (S4096x128.size a) (S1000000x128.size a)).extent (S4096x128.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hstart2_6 : ∀ (i : grid2.Coords) a, cc2_transform_6 i a * S4096x128.size a < S1000000x128.size a
  hwx2_6 : ∀ i : grid2.Coords, EltTy.bits .f32 = 32 ∨ (Rect.unit (s := S1000000x128) (fun a => cc2_transform_6 i a * S4096x128.size a) (fun a => (Pipeline.Clip.of (cc2_transform_6 i a) (S4096x128.size a) (S1000000x128.size a)).extent (S4096x128.size a)) fun a => Pipeline.Clip.inb (Pipeline.Clip.ok_of (hstart2_6 i a))).WholeWords (EltTy.packing .f32)
  hwxs2_6 : ∀ i : grid2.Coords, EltTy.bits .f32 = 32 ∨ (Rect.unit (s := S4096x128) (fun _ => 0) (fun a => (Pipeline.Clip.of (cc2_transform_6 i a) (S4096x128.size a) (S1000000x128.size a)).extent (S4096x128.size a)) fun a => (Nat.zero_add _).trans_le (Pipeline.Clip.extent_le (Pipeline.Clip.ok_of (hstart2_6 i a)))).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpecClip (Memref.whole main_v10) S4096x128.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_v17) S4096x128.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpecClip (Memref.whole main_v22) S4096x128.size cc2_transform_6 reads2_6 true false 2 stage2_6 sem2_6
    hrank2 hreads2_6 hstart2_6 nbuf2_6 (Memref.isWhole_whole _) hwx2_6 hwxs2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S1000000 : Shape := ⟨1, ![1000000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S_ : Shape := ⟨0, ![]⟩
abbrev S1000000x1 : Shape := ⟨2, ![1000000, 1]⟩
abbrev S1000000x128 : Shape := ⟨2, ![1000000, 128]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S1000000, .i32⟩
  | .hbm, ⟨3, _⟩ => ⟨S1000000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S100000x128, .f32⟩
  | .hbm, ⟨13, _⟩ => ⟨S1x128, .f32⟩
  | .hbm, ⟨14, _⟩ => ⟨S100000x128, .f32⟩
  | .hbm, ⟨15, _⟩ => ⟨S100000x128, .f32⟩
  | .hbm, ⟨16, _⟩ => ⟨S50000x128, .f32⟩
  | .hbm, ⟨17, _⟩ => ⟨S1x128, .f32⟩
  | .hbm, ⟨18, _⟩ => ⟨S50000x128, .f32⟩
  | .hbm, ⟨19, _⟩ => ⟨S50000x128, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x128, .f32⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000x128, .f32⟩
  | .hbm, ⟨38, _⟩ => ⟨S1000000x128, .f32⟩
  | .hbm, ⟨39, _⟩ => ⟨S_, .f32⟩
  | .hbm, ⟨40, _⟩ => ⟨S1000000x128, .f32⟩
  | .hbm, ⟨41, _⟩ => ⟨S1000000x128, .i1⟩
  | .hbm, ⟨42, _⟩ => ⟨S_, .f32⟩
  | .hbm, ⟨43, _⟩ => ⟨S1000000x128, .f32⟩
  | .hbm, ⟨44, _⟩ => ⟨S1000000x128, .f32⟩
  | .hbm, ⟨45, _⟩ => ⟨S1000000x128, .f32⟩
  | .hbm, ⟨46, _⟩ => ⟨S1000000x128, .f32⟩
  | .hbm, ⟨47, _⟩ => ⟨S1x128, .f32⟩
  | .hbm, ⟨48, _⟩ => ⟨S1000000x128, .f32⟩
  | .hbm, ⟨49, _⟩ => ⟨S1000000x128, .f32⟩
  | .hbm, ⟨50, _⟩ => ⟨S_, .f32⟩
  | .hbm, ⟨51, _⟩ => ⟨S1000000x128, .f32⟩
  | .hbm, ⟨52, _⟩ => ⟨S1000000x128, .i1⟩
  | .hbm, ⟨53, _⟩ => ⟨S_, .f32⟩
  | .hbm, ⟨54, _⟩ => ⟨S1000000x128, .f32⟩
  | .hbm, ⟨55, _⟩ => ⟨S1000000x128, .f32⟩
  | .hbm, ⟨56, _⟩ => ⟨S1000000x128, .f32⟩
  | .hbm, ⟨57, _⟩ => ⟨S1000000x1, .f32⟩
  | .hbm, ⟨58, _⟩ => ⟨S1x1, .f32⟩
  | .hbm, ⟨59, _⟩ => ⟨S1000000x1, .f32⟩
  | .hbm, ⟨60, _⟩ => ⟨S1000000x1, .f32⟩
  | .hbm, ⟨61, _⟩ => ⟨S_, .f32⟩
  | .hbm, ⟨62, _⟩ => ⟨S1000000x1, .f32⟩
  | .hbm, ⟨63, _⟩ => ⟨S1000000x1, .i1⟩
  | .hbm, ⟨64, _⟩ => ⟨S_, .f32⟩
  | .hbm, ⟨65, _⟩ => ⟨S1000000x1, .f32⟩
  | .hbm, ⟨66, _⟩ => ⟨S1000000x1, .f32⟩
  | .hbm, ⟨67, _⟩ => ⟨S1000000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S50000x128_0_1 : S1x128.BroadcastsInDim S50000x128 (![0, 1] : Fin 2 → Fin S50000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x128 : S_.BroadcastsInDim S1000000x128 (![] : Fin 0 → Fin S1000000x128.rank)
  bcast_S1x128_S1000000x128_0_1 : S1x128.BroadcastsInDim S1000000x128 (![0, 1] : Fin 2 → Fin S1000000x128.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  dot_S100000x128_S128x128_S100000x128_1_0_0_1_n_n_wf : DotDims.WF S100000x128 S128x128 S100000x128 [1] [0] [0] [1] [] []
  dot_S50000x128_S128x128_S50000x128_1_0_0_1_n_n_wf : DotDims.WF S50000x128 S128x128 S50000x128 [1] [0] [0] [1] [] []
  gather_S100000x128_S1000000x1_S1000000x128_1_0_n_n_0_1_1128_wf : GatherDims.WF S100000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  dot_S1000000x128_S128x128_S1000000x128_1_0_0_1_n_n_wf : DotDims.WF S1000000x128 S128x128 S1000000x128 [1] [0] [0] [1] [] []
  dot_S1000000x128_S128x1_S1000000x1_1_0_0_1_n_n_wf : DotDims.WF S1000000x128 S128x1 S1000000x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf

class Facts : Prop extends Facts₀ where

variable [Facts]
-- ==== Proof.KernelFrameBody.lean ====
/-
  The kernel bodies of the three pipelined regions, each run once on symbolic whole staging memrefs.

  Regions 0 and 1 (a linear layer x·W + b on 5000×128 blocks): the three input buffers come back as they were
  handed over and the output buffer holds a closed function of the three input contents — the single store's
  payload laid over the whole block.

  Region 2 (the two-layer perceptron on 4096×128 blocks): only that the body runs, returns its six input buffers
  as it was handed them, and leaves the output buffer at some contents. Nothing is said about those contents:
  the last block of the grid overhangs the array and the rows past its end hold values no statement constrains.
-/
import proofs.«132436_j89249420411231_1_alg».proof.Proof.Gen.Kernel.Launch
import proofs.«132436_j89249420411231_1_alg».proof.Proof.Gen.Kernel.Skeleton
import proofs.«132436_j89249420411231_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel.Gen

variable {F : FTy → Type} [FloatOps F]

local notation "𝕄" => MT nD τ sig Unit (Elt F) ℕ (Pipeline.UD sig nD τ) ℕ

/-! ## The whole-buffer rectangles the bodies load and store through -/

abbrev rA : Rect S5000x128 := Rect.unit (s := S5000x128) ![0, 0] S5000x128.size inb_S5000x128_S5000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-! ## Regions 0 and 1: what the body leaves in the output buffer -/

/-- The output block of region 0's body from the three input contents: its one store, over the whole block. -/
def out0 (x0 : Vec F S5000x128 .f32) (x1 : Vec F S128x128 .f32) (x2 : Vec F S1x128 .f32) : Vec F S5000x128 .f32 :=
  View.canon [⟨rA, k0_pay1 (View.ld x0 rA) (View.ld x1 rW) (View.ld x2 rB)⟩]

/-- The output block of region 1's body from the three input contents. -/
def out1 (x0 : Vec F S5000x128 .f32) (x1 : Vec F S128x128 .f32) (x2 : Vec F S1x128 .f32) : Vec F S5000x128 .f32 :=
  View.canon [⟨rA, k1_pay1 (View.ld x0 rA) (View.ld x1 rW) (View.ld x2 rB)⟩]

/-- One store through the whole-block rectangle covers the block. -/
theorem coverA (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 1000000 in
/-- Region 0's body on whole staging memrefs: the inputs at contents `x0`, `x1`, `x2`, the output at anything; it
    runs to the continuation holding the inputs as they were and the output at `out0 x0 x1 x2`. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverA _)

set_option maxHeartbeats 1000000 in
/-- Region 1's body, likewise. -/
theorem sound_kernel1 (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverA _)

/-! ## Region 2: the body runs and returns its inputs -/

set_option maxHeartbeats 1000000 in
/-- Region 2's body on whole staging memrefs, every buffer at any contents: it runs to the continuation holding
    the six inputs at the contents they were handed over with and the output at some contents. -/
theorem sound_kernel2 (c : Dev nD) (E : Set ℕ) (i : grid2.Coords)
    (arg1 : Memref sig .tc .vmem S4096x128 .f32) (harg1 : arg1.IsWhole) (arg2 : Memref sig .tc .vmem S4096x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S4096x128 .f32) (harg7 : arg7.IsWhole)
    (x0 x1 : Vec F S4096x128 .f32) (x2 : Vec F S128x128 .f32) (x3 : Vec F S1x128 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ (∃ d, owns (c : Thread nD τ) arg7 fullShare d)) -∗ K ⟨⟩))
      ⊢ wp frame (wpE (defs₀ (F := F)) Variants.none c none) E
          (cc2__mlp_kernel i arg1 harg1 arg2 harg2 arg3 harg3 arg4 harg4 arg5 harg5 arg6 harg6 arg7 harg7) K := by
  simp only [cc2__mlp_kernel_eq_skeleton]; unfold cc2__mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _, _; isplitr
  swap; · iexact H6
  ipureintro; rfl

end Cert.Kernel.Hand

end
-- ==== Proof.KernelFrameDat.lean ====
/-
  The proof data of the three pipelined regions, each at a parameter `V` — the contents of the core's buffers when
  the region is entered — and the body obligation of each.

  Regions 0 and 1 are exact: what the body leaves in every staging buffer is named (an input's block, or the linear
  layer's output as a closed function of the three input blocks), so that the array each region writes is known
  when region 2 is entered. Region 2 is relational: every input buffer is left as found and the output buffer is
  left unconstrained.
-/
import proofs.«132436_j89249420411231_1_alg».proof.Proof.KernelFrameBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel.Gen

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-! # Region 0: a linear layer, exact proof data at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not, for any exact data whose
    array is `V`'s and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not, for any exact data whose
    array is `V`'s and whose body leaves the block in place. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not, for any exact data whose
    array is `V`'s and whose body leaves the block in place. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The exact proof data of region 0 on core `c`: the arrays as the region finds them; after the body each input's
    buffer at its block and the output's at `out0` of the three input blocks; the invariant the scoped rest and the
    generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the exact data, at every point. -/
theorem body_obligation0 (c : Dev nD) : BodyObligation (dat0 (F := F) V c) (defs₀ (F := F)) Variants.none () Set.univ := fun t => by
  rw [bigSep_W0, bigSep_W0]
  exact sound_body0 V c t

/-! # Region 1: a linear layer, exact proof data at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not, for any exact data whose
    array is `V`'s and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not, for any exact data whose
    array is `V`'s and whose body leaves the block in place. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not, for any exact data whose
    array is `V`'s and whose body leaves the block in place. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The exact proof data of region 1 on core `c`: the arrays as the region finds them; after the body each input's
    buffer at its block and the output's at `out1` of the three input blocks; the invariant the scoped rest and the
    generator register, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the exact data, at every point. -/
theorem body_obligation1 (c : Dev nD) : BodyObligation (dat1 (F := F) V c) (defs₀ (F := F)) Variants.none () Set.univ := fun t => by
  rw [bigSep_W1, bigSep_W1]
  exact sound_body1 V c t

/-! # Region 2: the perceptron, relational proof data at the entry contents `V` -/

/-- The relational proof data of region 2 on core `c`: the arrays as the region finds them; the body hands every
    input buffer back as it found it, and of the output buffer nothing is said (its last block overhangs the array);
    the invariant the scoped rest and the generator register; nothing owed; full shares. -/
def rd2 (c : Dev nD) : RDat τ (Elt F) Unit ℕ (Pipeline.UD sig nD τ) ℕ cfg2 c where
  A w := V c (Pipeline.arrRef spec2 w)
  after w _ Y X := w.val ≠ 6 → X = Y
  Φ _ := Pipeline.ΦA spec2 c
  q _ := fullShare
  owed _ := 0

theorem A_eq2 (c : Dev nD) (w : Fin cfg2.W) : (rd2 V c).A w = V c (Pipeline.arrRef spec2 w) := by
  dsimp only [rd2]

/-- What the body is called with at point `t`, the windows one by one at any contents `Y`, -/
def bodyPre2 (c : Dev nD) (t : Fin cfg2.N) (Y : (w : Fin cfg2.W) → (cfg2.win w).block.Idx → Elt F (cfg2.win w).elt) : sProp 𝕄 :=
  iprop((rd2 V c).Φ t.castSucc ∗ (rd2 V c).owesAt () t.castSucc
    ∗ owns (c : Thread nD τ) (st2_0 t) fullShare (Y 0)
    ∗ owns (c : Thread nD τ) (st2_1 t) fullShare (Y 1)
    ∗ owns (c : Thread nD τ) (st2_2 t) fullShare (Y 2)
    ∗ owns (c : Thread nD τ) (st2_3 t) fullShare (Y 3)
    ∗ owns (c : Thread nD τ) (st2_4 t) fullShare (Y 4)
    ∗ owns (c : Thread nD τ) (st2_5 t) fullShare (Y 5)
    ∗ owns (c : Thread nD τ) (st2_6 t) fullShare (Y 6))

/-- and what it returns: each buffer at some contents in the data's relation to what was handed over. -/
def bodyPost2 (c : Dev nD) (t : Fin cfg2.N) (Y : (w : Fin cfg2.W) → (cfg2.win w).block.Idx → Elt F (cfg2.win w).elt) : sProp 𝕄 :=
  iprop((rd2 V c).Φ t.succ ∗ (rd2 V c).owesAt () t.succ
    ∗ (∃ X, ⌜(rd2 V c).after 0 t (Y 0) X⌝ ∗ owns (c : Thread nD τ) (st2_0 t) fullShare X)
    ∗ (∃ X, ⌜(rd2 V c).after 1 t (Y 1) X⌝ ∗ owns (c : Thread nD τ) (st2_1 t) fullShare X)
    ∗ (∃ X, ⌜(rd2 V c).after 2 t (Y 2) X⌝ ∗ owns (c : Thread nD τ) (st2_2 t) fullShare X)
    ∗ (∃ X, ⌜(rd2 V c).after 3 t (Y 3) X⌝ ∗ owns (c : Thread nD τ) (st2_3 t) fullShare X)
    ∗ (∃ X, ⌜(rd2 V c).after 4 t (Y 4) X⌝ ∗ owns (c : Thread nD τ) (st2_4 t) fullShare X)
    ∗ (∃ X, ⌜(rd2 V c).after 5 t (Y 5) X⌝ ∗ owns (c : Thread nD τ) (st2_5 t) fullShare X)
    ∗ (∃ X, ⌜(rd2 V c).after 6 t (Y 6) X⌝ ∗ owns (c : Thread nD τ) (st2_6 t) fullShare X))

/-- The body at any point, on any contents: it runs, hands the inputs back as found and the output at something. -/
theorem sound_body2 (c : Dev nD) (t : Fin cfg2.N) (Y : (w : Fin cfg2.W) → (cfg2.win w).block.Idx → Elt F (cfg2.win w).elt) :
    bodyPre2 V c t Y ⊢ wp frame (wpE (defs₀ (F := F)) Variants.none c none) Set.univ (bodyAt2 t) (fun _ => bodyPost2 V c t Y) := by
  unfold bodyPre2 bodyPost2 bodyAt2
  rw [show (rd2 V c).Φ t.succ = (rd2 V c).Φ t.castSucc from rfl,
    show (rd2 V c).owesAt () t.succ = (rd2 V c).owesAt () t.castSucc from rfl]
  iintro ⟨HΦ, Ho, H0, H1, H2, H3, H4, H5, H6⟩
  iapply (sound_kernel2 c Set.univ (grid2.coords t) _ _ _ _ _ _ _ _ _ _ _ _ _ _ (Y 0) (Y 1) (Y 2) (Y 3) (Y 4) (Y 5) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%d, H6⟩⟩
  isplitl [HΦ]; · iexact HΦ
  isplitl [Ho]; · iexact Ho
  isplitl [H0]
  · iexists (Y 0); isplitr; · ipureintro; exact fun _ => rfl
    iexact H0
  isplitl [H1]
  · iexists (Y 1); isplitr; · ipureintro; exact fun _ => rfl
    iexact H1
  isplitl [H2]
  · iexists (Y 2); isplitr; · ipureintro; exact fun _ => rfl
    iexact H2
  isplitl [H3]
  · iexists (Y 3); isplitr; · ipureintro; exact fun _ => rfl
    iexact H3
  isplitl [H4]
  · iexists (Y 4); isplitr; · ipureintro; exact fun _ => rfl
    iexact H4
  isplitl [H5]
  · iexists (Y 5); isplitr; · ipureintro; exact fun _ => rfl
    iexact H5
  iexists d; isplitr; · ipureintro; exact fun h => absurd rfl h
  iexact H6

/-- The relational body obligation, at every point and for whatever the buffers hold. -/
theorem body_obligation2 (c : Dev nD) : (rd2 (F := F) V c).BodyObligation (defs₀ (F := F)) Variants.none () Set.univ := fun t Y _ => by
  rw [bigSep_W2, bigSep_W2]
  exact sound_body2 V c t Y

end Regions

end Cert.Kernel.Hand

end
-- ==== Proof.KernelFrameRun.lean ====
/-
  The run of the program between its regions: the contents of the core's buffers at every boundary between two items
  of the program, a fold from the launch memory — a host stretch applies its operations, regions 0 and 1 overwrite
  their output array by what their write-backs leave —, up to the entry of region 2; that no item writes an argument
  array, so each holds its launch contents at every boundary; the proof data of the three pipelines, each at its
  region's entry contents; and two general facts about iterated separating conjunctions.
-/
import proofs.«132436_j89249420411231_1_alg».proof.Proof.KernelFrameDat
import proofs.«132436_j89249420411231_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel.Gen

variable {F : FTy → Type} [FloatOps F]

local notation "𝕄" => MT nD τ sig Unit (Elt F) ℕ (Pipeline.UD sig nD τ) ℕ

/-! ## Two general facts -/

/-- Pure facts stated summand by summand hold of every summand at once. -/
theorem bigSep_pure_sep {I : Type} [DecidableEq I] (S : Finset I) (P : I → Prop) (Q : I → sProp 𝕄) :
    bigSep S (fun i => iprop(⌜P i⌝ ∗ Q i)) ⊢ iprop(⌜∀ i ∈ S, P i⌝ ∗ bigSep S Q) := by
  induction S using Finset.induction_on with
  | empty =>
    rw [bigSep_empty]; iintro -
    isplitr
    · ipureintro; intro j hj; exact absurd hj (Finset.notMem_empty j)
    rw [bigSep_empty]; iempintro
  | insert i S hi ih =>
    have e : bigSep (insert i S) (fun i => iprop(⌜P i⌝ ∗ Q i)) = iprop((⌜P i⌝ ∗ Q i) ∗ bigSep S fun i => iprop(⌜P i⌝ ∗ Q i)) :=
      bigSep_insert hi
    have e' : bigSep (insert i S) Q = iprop(Q i ∗ bigSep S Q) := bigSep_insert hi
    rw [e, e']
    iintro ⟨⟨%hp, Hq⟩, HS⟩
    ihave H := ih $$ HS
    icases H with ⟨%hS, HS⟩
    isplitr
    · ipureintro
      intro j hj
      rcases Finset.mem_insert.mp hj with rfl | hj
      exacts [hp, hS j hj]
    isplitl [Hq]; · iexact Hq
    iexact HS

/-- A pipeline's arrays at contents `G` and the other unscoped buffers at `V` are the core's unscoped buffers at any
    valuation `V'` that has the arrays at `G` and agrees with `V` off them (relational proof data). -/
theorem bufs_of_arrays (p : Fin 3) (hw : Pipeline.WinFacts (Pipeline.pin (pcfgs (F := F)) adm p).spec)
    (harr : ∀ w, ((Pipeline.pin (pcfgs (F := F)) adm p).spec w).arr.IsWhole) (c : Dev nD)
    (rdats : (p : Fin 3) → (c : Dev nD) → RDat τ (Elt F) Unit ℕ (Pipeline.UD sig nD τ) ℕ (Pipeline.pin (pcfgs (F := F)) adm p) c)
    (hshare : ∀ w, (rdats p c).share w = fullShare)
    (V V' : (b : Ref sig .tc) → Buf (Elt F) ((c.tc : Thread nD τ).loc b))
    (G : (w : Fin (Pipeline.pin (pcfgs (F := F)) adm p).W) → Buf (Elt F) (((Pipeline.pin (pcfgs (F := F)) adm p).spec w).arr.view.loc (c.tc : Thread nD τ)))
    (hG : ∀ w, G w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats p c).arrays G ∗ Pipeline.unscopedRest (Ix := Unit) (Name := ℕ) (U := Pipeline.UD sig nD τ) (Lvl := ℕ) (Pipeline.pin (pcfgs (F := F)) adm p).spec c V)
      ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm rdats p c harr hshare]
  refine sep_mono (Entails.of_eq (bigSep_congr fun w _ => by rw [hG])) (Entails.of_eq ?_)
  unfold Pipeline.unscopedRest
  exact bigSep_congr fun b hb => by rw [hrest b (Finset.mem_sdiff.mp hb).2]

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev V1r : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1r m) c).arrAt w cfg0.N
abbrev V2r : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev V3r : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3r m) c).arrAt w cfg1.N
abbrev V4r : (c : Dev nD) → (b : Ref sig .tc) → Buf (Elt F) ((c : Thread nD τ).loc b) := fun c b => W4 m c b
/-- After each of the five host stretches before region 2. -/
abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev W8 : Dev nD → Valuation τ sig (Elt F) := fun c => StableHlo.after hostOps2_3 (W7 m c)
/-- Region 2's entry. -/
abbrev W9 : Dev nD → Valuation τ sig (Elt F) := fun c => StableHlo.after hostOps2_4 (W8 m c)
abbrev V9r : (c : Dev nD) → (b : Ref sig .tc) → Buf (Elt F) ((c : Thread nD τ).loc b) := fun c b => W9 m c b

theorem W2_arr (c : Dev nD) (w : Fin cfg0.W) :
    W2 m c (Proc.devRef .tc (Pipeline.arrRef spec0 w)) = (dat0 (V1r m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3r m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-! ## No item writes an argument -/

/-- The twelve argument arrays. -/
abbrev args : List (Ref sig .tc) :=
  [main_arg0, main_arg1, main_arg2, main_arg3, main_arg4, main_arg5, main_arg6, main_arg7, main_arg8, main_arg9, main_arg10, main_arg11]

/-- Valuation `V` has every argument array of core `c` at its launch contents. -/
def ArgsAt (c : Dev nD) (V : Valuation τ sig (Elt F)) : Prop :=
  ∀ r ∈ args, V (Proc.devRef .tc r) = m ((c : Thread nD τ).loc r)

theorem W1_args (c : Dev nD) : ∀ r ∈ args, W1 m c (Proc.devRef .tc r) = W0 m c (Proc.devRef .tc r) := fun r hr =>
  StableHlo.after_of_writes_sub hostOps0 _ hostOps0_writes ((by decide : ∀ r ∈ args, r ∉ hostOps0_W) r hr)
theorem W2_args (c : Dev nD) : ∀ r ∈ args, W2 m c (Proc.devRef .tc r) = W1 m c (Proc.devRef .tc r) := by
  intro r hr
  by_cases h : ∃ w, Pipeline.arrRef spec0 w = r
  · obtain ⟨w, rfl⟩ := h
    have hin : (cfg0.win w).isOut = false :=
      (by decide : ∀ w : Fin 4, Pipeline.arrRef spec0 w ∈ args → (cfg0.win w).isOut = false) w hr
    unfold W2
    rw [Pipeline.withArrays_arr spec0 launch0.win.arr_inj c _ _ w, (dat0 (V1r m) c).arrAt_in w hin, A_eq0]
  · unfold W2; exact Pipeline.withArrays_of_ne spec0 c _ _ r fun w e => h ⟨w, e⟩
theorem W3_args (c : Dev nD) : ∀ r ∈ args, W3 m c (Proc.devRef .tc r) = W2 m c (Proc.devRef .tc r) := fun r hr =>
  StableHlo.after_of_writes_sub hostOps1 _ hostOps1_writes ((by decide : ∀ r ∈ args, r ∉ hostOps1_W) r hr)
theorem W4_args (c : Dev nD) : ∀ r ∈ args, W4 m c (Proc.devRef .tc r) = W3 m c (Proc.devRef .tc r) := by
  intro r hr
  by_cases h : ∃ w, Pipeline.arrRef spec1 w = r
  · obtain ⟨w, rfl⟩ := h
    have hin : (cfg1.win w).isOut = false :=
      (by decide : ∀ w : Fin 4, Pipeline.arrRef spec1 w ∈ args → (cfg1.win w).isOut = false) w hr
    unfold W4
    rw [Pipeline.withArrays_arr spec1 launch1.win.arr_inj c _ _ w, (dat1 (V3r m) c).arrAt_in w hin, A_eq1]
  · unfold W4; exact Pipeline.withArrays_of_ne spec1 c _ _ r fun w e => h ⟨w, e⟩
theorem W5_args (c : Dev nD) : ∀ r ∈ args, W5 m c (Proc.devRef .tc r) = W4 m c (Proc.devRef .tc r) := fun r hr =>
  StableHlo.after_of_writes_sub hostOps2 _ hostOps2_writes ((by decide : ∀ r ∈ args, r ∉ hostOps2_W) r hr)
theorem W6_args (c : Dev nD) : ∀ r ∈ args, W6 m c (Proc.devRef .tc r) = W5 m c (Proc.devRef .tc r) := fun r hr =>
  StableHlo.after_of_writes_sub hostOps2_1 _ hostOps2_1_writes ((by decide : ∀ r ∈ args, r ∉ hostOps2_1_W) r hr)
theorem W7_args (c : Dev nD) : ∀ r ∈ args, W7 m c (Proc.devRef .tc r) = W6 m c (Proc.devRef .tc r) := fun r hr =>
  StableHlo.after_of_writes_sub hostOps2_2 _ hostOps2_2_writes ((by decide : ∀ r ∈ args, r ∉ hostOps2_2_W) r hr)
theorem W8_args (c : Dev nD) : ∀ r ∈ args, W8 m c (Proc.devRef .tc r) = W7 m c (Proc.devRef .tc r) := fun r hr =>
  StableHlo.after_of_writes_sub hostOps2_3 _ hostOps2_3_writes ((by decide : ∀ r ∈ args, r ∉ hostOps2_3_W) r hr)
theorem W9_args' (c : Dev nD) : ∀ r ∈ args, W9 m c (Proc.devRef .tc r) = W8 m c (Proc.devRef .tc r) := fun r hr =>
  StableHlo.after_of_writes_sub hostOps2_4 _ hostOps2_4_writes ((by decide : ∀ r ∈ args, r ∉ hostOps2_4_W) r hr)

/-- At region 2's entry every argument array holds its launch contents. -/
theorem W9_args (c : Dev nD) : ArgsAt m c (W9 m c) := fun r hr =>
  (W9_args' m c r hr).trans <| (W8_args m c r hr).trans <| (W7_args m c r hr).trans <| (W6_args m c r hr).trans <|
    (W5_args m c r hr).trans <| (W4_args m c r hr).trans <| (W3_args m c r hr).trans <| (W2_args m c r hr).trans <|
    (W1_args m c r hr).trans rfl

/-! ## The proof data of the three pipelines -/

/-- Every pipeline's proof data, each at its region's entry contents: regions 0 and 1 exact data read relationally,
    region 2 relational. -/
def rdats : (p : Fin 3) → (c : Dev nD) → RDat τ (Elt F) Unit ℕ (Pipeline.UD sig nD τ) ℕ (Pipeline.pin (pcfgs (F := F)) adm p) c
  | ⟨0, _⟩ => fun c => (dat0 (V1r m) c).toR
  | ⟨1, _⟩ => fun c => (dat1 (V3r m) c).toR
  | ⟨2, _⟩ => fun c => rd2 (V9r m) c

end Cert.Kernel.Hand

end
-- ==== Proof.KernelFrame.lean ====
/-
  The frame of the program: the program as a list of host stretches and pipelined regions, each entered from the
  thread state the one before it leaves — every unscoped buffer of the core at the boundary's contents, its generator
  register at some state, nothing owed. Up to region 2 the boundary contents are named (the fold of the run); region 2
  leaves its output array at contents nothing names, so from its exit on the thread state only says that SOME
  valuation holds in which every argument array has its launch contents — all the frame reads at the end.
-/
import proofs.«132436_j89249420411231_1_alg».proof.Proof.KernelFrameRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel.Gen

variable {F : FTy → Type} [FloatOps F]

local notation "𝕄" => MT nD τ sig Unit (Elt F) ℕ (Pipeline.UD sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The thread state from region 2's exit on: every unscoped buffer at SOME contents in which the arguments are as
    launched; the rest as before. -/
def TEx (c : Dev nD) : sProp 𝕄 :=
  iprop(∃ V : Valuation τ sig (Elt F), ⌜ArgsAt m c V⌝ ∗ StableHlo.held (c : Thread nD τ) (Pipeline.ucRefs τ sig) V ∗ R c)

/-! ## The regions as segments -/

set_option backward.isDefEq.respectTransparency.types false in
/-- Region 0 over the thread state: entered from every unscoped buffer at `W1`, left at `W2`. Its arrays are
    split out of the unscoped buffers and put back at the exit contents; the generator register goes into the
    invariant and comes out; nothing owed; no semaphore of the kernel's own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1r m) c).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1r m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V1r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have harr : ((rdats m 0 c).arraysAt (Pipeline.pin (pcfgs (F := F)) adm 0).N : sProp 𝕄) = (rdats m 0 c).arrays ((dat0 (V1r m) c).arrAt · cfg0.N) :=
      (dat0 (V1r m) c).toR_arraysAt_eq cfg0.N
    have hjoin := bufs_of_arrays 0 launch0.win launch0.arr_whole c (rdats m) ((rdats m 0 c).share_full fun _ => rfl)
      (V1r m c) (V2r m c) ((dat0 (V1r m) c).arrAt · cfg0.N) (fun w => (W2_arr m c w).symm)
      (fun b hb => W2_of_ne m c b fun w e => hb (Finset.mem_image.mpr ⟨w, Finset.mem_univ _, e⟩))
    rw [Pipeline.unscopedBufs_held] at hjoin
    rw [harr]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    invariant and comes out; nothing owed; no semaphore of the kernel's own. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3r m) c).toR
  hwaits := Pipeline.RDat.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3r m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (V3r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have harr : ((rdats m 1 c).arraysAt (Pipeline.pin (pcfgs (F := F)) adm 1).N : sProp 𝕄) = (rdats m 1 c).arrays ((dat1 (V3r m) c).arrAt · cfg1.N) :=
      (dat1 (V3r m) c).toR_arraysAt_eq cfg1.N
    have hjoin := bufs_of_arrays 1 launch1.win launch1.arr_whole c (rdats m) ((rdats m 1 c).share_full fun _ => rfl)
      (V3r m c) (V4r m c) ((dat1 (V3r m) c).arrAt · cfg1.N) (fun w => (W4_arr m c w).symm)
      (fun b hb => W4_of_ne m c b fun w e => hb (Finset.mem_image.mpr ⟨w, Finset.mem_univ _, e⟩))
    rw [Pipeline.unscopedBufs_held] at hjoin
    rw [harr]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## Region 2: its exit names no contents -/

/-- The contents region 2 leaves: its arrays at `G`, every other buffer as entered. -/
abbrev VEr (c : Dev nD) (G : (w : Fin cfg2.W) → Buf (Elt F) ((cfg2.win w).arr.view.loc (c.tc : Thread nD τ))) :
    (b : Ref sig .tc) → Buf (Elt F) ((c : Thread nD τ).loc b) := fun b => Pipeline.withArrays spec2 c (W9 m c) G b

/-- Whatever region 2's arrays may hold after every write-back, the arguments are as launched: an argument that is
    one of its arrays is an input's, never written back, and the others bypass the region. -/
theorem exit2_args (c : Dev nD) (G : (w : Fin cfg2.W) → Buf (Elt F) ((cfg2.win w).arr.view.loc (c.tc : Thread nD τ)))
    (hG : ∀ w ∈ (Finset.univ : Finset (Fin cfg2.W)), (rd2 (V9r m) c).ArrAt w cfg2.N (G w)) :
    ArgsAt m c (Pipeline.withArrays spec2 c (W9 m c) G) := by
  intro r hr
  by_cases h : ∃ w, Pipeline.arrRef spec2 w = r
  · obtain ⟨w, rfl⟩ := h
    have hin : (cfg2.win w).isOut = false :=
      (by decide : ∀ w : Fin 7, Pipeline.arrRef spec2 w ∈ args → (cfg2.win w).isOut = false) w hr
    have hGw : G w = (rd2 (V9r m) c).A w := by
      have h1 := hG w (Finset.mem_univ w)
      rw [(rd2 (V9r m) c).ArrAt_in w hin] at h1
      exact h1
    rw [Pipeline.withArrays_arr spec2 launch2.win.arr_inj c _ _ w, hGw, A_eq2]
    exact W9_args m c _ hr
  · rw [Pipeline.withArrays_of_ne spec2 c _ _ r fun w e => h ⟨w, e⟩]
    exact W9_args m c r hr

set_option backward.isDefEq.respectTransparency.types false in
/-- Region 2's arrays at `G` beside the buffers that bypassed it are every unscoped buffer at `VEr G`. -/
theorem exit2_join (c : Dev nD) (G : (w : Fin cfg2.W) → Buf (Elt F) ((cfg2.win w).arr.view.loc (c.tc : Thread nD τ))) :
    iprop((rdats m 2 c).arrays G ∗ Pipeline.unscopedRest (Ix := Unit) (Name := ℕ) (U := Pipeline.UD sig nD τ) (Lvl := ℕ) spec2 c (V9r m c))
      ⊢ (StableHlo.held (c : Thread nD τ) (Pipeline.ucRefs τ sig) (Pipeline.withArrays spec2 c (W9 m c) G) : sProp 𝕄) := by
  have hjoin := bufs_of_arrays 2 launch2.win launch2.arr_whole c (rdats m) ((rdats m 2 c).share_full fun _ => rfl)
    (V9r m c) (VEr m c G) G (fun w => (Pipeline.withArrays_arr spec2 launch2.win.arr_inj c _ _ w).symm)
    (fun b hb => Pipeline.withArrays_of_ne spec2 c _ _ b fun w e => hb (Finset.mem_image.mpr ⟨w, Finset.mem_univ _, e⟩))
  rw [Pipeline.unscopedBufs_held] at hjoin
  exact hjoin

set_option backward.isDefEq.respectTransparency.types false in
/-- Region 2's exit: its arrays at whatever they may hold and the bypassing buffers are every unscoped buffer at some
    contents with the arguments as launched. -/
theorem exit2 (c : Dev nD) :
    iprop((rdats m 2 c).arraysAt cfg2.N ∗ Pipeline.unscopedRest (Ix := Unit) (Name := ℕ) (U := Pipeline.UD sig nD τ) (Lvl := ℕ) spec2 c (V9r m c))
      ⊢ (iprop(∃ V : Valuation τ sig (Elt F), ⌜ArgsAt m c V⌝ ∗ StableHlo.held (c : Thread nD τ) (Pipeline.ucRefs τ sig) V) : sProp 𝕄) := by
  have hj : ∀ G : (w : Fin cfg2.W) → Buf (Elt F) ((cfg2.win w).arr.view.loc (c.tc : Thread nD τ)),
      iprop((bigSep (Finset.univ : Finset (Fin cfg2.W)) fun w =>
            ((cfg2.win w).arr.view.loc (c.tc : Thread nD τ) ↦[(cfg2.win w).arr.view.set]{(rdats m 2 c).share w} G w : sProp 𝕄))
          ∗ Pipeline.unscopedRest (Ix := Unit) (Name := ℕ) (U := Pipeline.UD sig nD τ) (Lvl := ℕ) spec2 c (V9r m c))
        ⊢ (StableHlo.held (c : Thread nD τ) (Pipeline.ucRefs τ sig) (Pipeline.withArrays spec2 c (W9 m c) G) : sProp 𝕄) :=
    fun G => exit2_join m c G
  unfold Pipeline.RDat.arraysAt
  iintro ⟨Ha, Hrest⟩
  ihave H := (bigSep_exists_pi (Finset.univ : Finset (Fin cfg2.W))
    (fun (w : Fin cfg2.W) (G : Buf (Elt F) ((cfg2.win w).arr.view.loc (c.tc : Thread nD τ))) =>
      (iprop(⌜(rdats m 2 c).ArrAt w cfg2.N G⌝ ∗ (cfg2.win w).arr.view.loc (c.tc : Thread nD τ) ↦[(cfg2.win w).arr.view.set]{(rdats m 2 c).share w} G) : sProp 𝕄))) $$ Ha
  icases H with ⟨%G, H⟩
  ihave H' := (bigSep_pure_sep (Finset.univ : Finset (Fin cfg2.W)) (fun w => (rdats m 2 c).ArrAt w cfg2.N (G w))
    (fun w => ((cfg2.win w).arr.view.loc (c.tc : Thread nD τ) ↦[(cfg2.win w).arr.view.set]{(rdats m 2 c).share w} G w : sProp 𝕄))) $$ H
  icases H' with ⟨%hG, Ha⟩
  iexists (Pipeline.withArrays spec2 c (W9 m c) G)
  isplitr
  · ipureintro; exact exit2_args m c G hG
  iapply (hj G)
  isplitl [Ha]; · iexact Ha
  iexact Hrest

set_option backward.isDefEq.respectTransparency.types false in
/-- Region 2 over the thread state: entered from every unscoped buffer at `W9`, left at contents nothing names. -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (V9r m) c
  hwaits := Pipeline.RDat.hwaits_of_owed_zero _ _ _ _ L lv 2 fun _ _ => rfl
  pre c := iprop(StableHlo.held (c : Thread nD τ) (Pipeline.ucRefs τ sig) (W9 m c) ∗ R c)
  post c := TEx m c
  X c := iprop(∃ r, prngReg c r)
  Y c := iprop(∃ r, prngReg c r)
  Z c := Pipeline.unscopedRest (Ix := Unit) (Name := ℕ) (U := Pipeline.UD sig nD τ) (Lvl := ℕ) spec2 c (V9r m c)
  hentry c := by
    rw [Pipeline.ownSems0_none]
    have hsplit := Pipeline.RDat.arrays_of_unscopedBufs (p := 2) (pcfgs (F := F)) adm (rdats m) launch2.win launch2.arr_whole c
      ((rdats m 2 c).share_full fun _ => rfl) (V9r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    unfold TEx
    iintro ⟨Ha, HO, HY, Hrest⟩
    ihave H := (exit2 m c) $$ [Ha Hrest]
    · isplitl [Ha]; · iexact Ha
      iexact Hrest
    icases H with ⟨%V, %hV, Hh⟩
    imodintro
    iexists V
    isplitr; · ipureintro; exact hV
    isplitl [Hh]; · iexact Hh
    isplitl [HY]; · iexact HY
    unfold Pipeline.RDat.owesAt Pipeline.owesWithin
    icases HO with ⟨%W, -, HO⟩; iexists W; iexact HO

/-! ## The last host stretch, from contents nothing names -/

/-- The last stretch writes no argument: whatever valuation it runs from, the arguments stay as they were. -/
theorem after3_args (c : Dev nD) (V : Valuation τ sig (Elt F)) (hV : ArgsAt m c V) : ArgsAt m c (StableHlo.after hostOps3 V) := fun r hr =>
  (StableHlo.after_of_writes_sub hostOps3 V hostOps3_writes ((by decide : ∀ r ∈ args, r ∉ hostOps3_W) r hr)).trans (hV r hr)

set_option backward.isDefEq.respectTransparency.types false in
/-- The last host stretch as a segment from and to the thread state that names no contents: it runs from whichever
    valuation holds, and leaves one with the arguments still as launched. -/
def segEx : Pipeline.HostSeg (Name := ℕ) (U := Pipeline.UD sig nD τ) (pcfgs (F := F)) defs₀ 𝒱₀ L lv where
  prog := StableHlo.seq hostOps3
  pre c := TEx m c
  post c := TEx m c
  run c {β} k K := by
    have hrun : ∀ V : Valuation τ sig (Elt F), _ :=
      fun V => (hseg (F := F) hostOps3 hostOps3_sub hostOps3_fresh (fun _ => V)).run c k K
    dsimp only [hseg, Pipeline.HostSeg.ofOps] at hrun
    unfold TEx
    iintro ⟨Hk, Hbd, ⟨%V, %hV, Hh, HR⟩, Hla⟩
    iapply (hrun V)
    isplitl [Hk]
    · iintro ⟨Hbd, Hh, HR⟩
      iapply Hk
      isplitl [Hbd]; · iexact Hbd
      iexists (StableHlo.after hostOps3 V)
      isplitr; · ipureintro; exact after3_args m c V hV
      isplitl [Hh]; · iexact Hh
      iexact HR
    isplitl [Hbd]; · iexact Hbd
    isplitl [Hh HR]
    · isplitl [Hh]; · iexact Hh
      iexact HR
    iexact Hla

/-! ## The program as segments, and the launch -/

/-- The program's eleven items in order. -/
abbrev segs : List (Pipeline.RDat.Seg (pcfgs (F := F)) adm (rdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .host (hseg hostOps2_4 hostOps2_4_sub hostOps2_4_fresh (W8 m)),
    .region (reg2 m),
    .host (segEx m) ]

/-- The last thread state without the dues: every unscoped buffer at some contents with the arguments as launched,
    the generator register at some state. -/
def Tₙ (c : Dev nD) : sProp 𝕄 :=
  iprop(∃ V : Valuation τ sig (Elt F), ⌜ArgsAt m c V⌝ ∗ StableHlo.held (c : Thread nD τ) (Pipeline.ucRefs τ sig) V ∗ ∃ r, prngReg c r)

variable (ρ : Dev nD → PrngReg)

set_option backward.isDefEq.respectTransparency.types false in
/-- THE FRAME: from any memory with zero counters, every weakly fair execution of the program on the TensorCores
    terminates, nothing faulting, and every final state has the twelve argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.RDat.θ_run_regions_kit (pcfgs (F := F)) adm (rdats m) () cellOf_inj embL defs₀ 𝒱₀ L lv m ρ main (segs m)
    (fun c Q => by
      rewrite [main_chain c, Pipeline.RDat.Seg.run_eq_chain,
        show (segs m).map Pipeline.RDat.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show TEx m c ⊢ _
        unfold TEx Tₙ
        iintro ⟨%V, %hV, Hh, Hp, HO⟩
        isplitr [HO]
        · iexists V; isplitr; · ipureintro; exact hV
          isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => by
      unfold Tₙ StableHlo.held
      iintro ⟨⟨%V, %hV, Hh, -⟩, HSI⟩
      ihave Hr := (pointsTo_read_all (Pipeline.ucRefs τ sig) (fun b => ((c : Thread nD τ).1, b)) V s') $$ [Hh HSI]
      · isplitl [Hh] <;> iassumption
      icases Hr with ⟨%h, HSI⟩
      imodintro
      isplitr
      · ipureintro
        exact ⟨(h (Proc.devRef .tc main_arg0) (mem_uc main_arg0 (by decide))).trans (hV main_arg0 (by decide)),
          (h (Proc.devRef .tc main_arg1) (mem_uc main_arg1 (by decide))).trans (hV main_arg1 (by decide)),
          (h (Proc.devRef .tc main_arg2) (mem_uc main_arg2 (by decide))).trans (hV main_arg2 (by decide)),
          (h (Proc.devRef .tc main_arg3) (mem_uc main_arg3 (by decide))).trans (hV main_arg3 (by decide)),
          (h (Proc.devRef .tc main_arg4) (mem_uc main_arg4 (by decide))).trans (hV main_arg4 (by decide)),
          (h (Proc.devRef .tc main_arg5) (mem_uc main_arg5 (by decide))).trans (hV main_arg5 (by decide)),
          (h (Proc.devRef .tc main_arg6) (mem_uc main_arg6 (by decide))).trans (hV main_arg6 (by decide)),
          (h (Proc.devRef .tc main_arg7) (mem_uc main_arg7 (by decide))).trans (hV main_arg7 (by decide)),
          (h (Proc.devRef .tc main_arg8) (mem_uc main_arg8 (by decide))).trans (hV main_arg8 (by decide)),
          (h (Proc.devRef .tc main_arg9) (mem_uc main_arg9 (by decide))).trans (hV main_arg9 (by decide)),
          (h (Proc.devRef .tc main_arg10) (mem_uc main_arg10 (by decide))).trans (hV main_arg10 (by decide)),
          (h (Proc.devRef .tc main_arg11) (mem_uc main_arg11 (by decide))).trans (hV main_arg11 (by decide))⟩
      · iexact HSI)
    (hQ := fun _ h => h)

end Cert.Kernel.Hand

end
-- ==== Proof.IdealBody.lean ====
/-
  The three kernel bodies as Hoare triples on whole staging buffers.

  A linear body (regions 0 and 1) loads its three input buffers whole, and stores x·W + b over the whole of its output
  buffer; the edge-network body (region 2) loads its six input buffers whole and stores the network's value over the
  whole of its output buffer. Each triple says: the inputs' buffers end as they were, and the output's buffer ends
  holding the body's stored value as a function of the inputs' contents.
-/
import proofs.«132436_j89249420411231_1_alg».proof.Proof.Gen.KernelIdeal.Launch
import proofs.«132436_j89249420411231_1_alg».proof.Proof.Gen.KernelIdeal.Skeleton
import proofs.«132436_j89249420411231_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## The whole-buffer rectangles the bodies access -/

abbrev r5000 : Rect S5000x128 := Rect.unit (s := S5000x128) ![0, 0] S5000x128.size inb_S5000x128_S5000x128_0_0
abbrev r128 : Rect S128x128 := Rect.unit (s := S128x128) ![0, 0] S128x128.size inb_S128x128_S128x128_0_0
abbrev r1 : Rect S1x128 := Rect.unit (s := S1x128) ![0, 0] S1x128.size inb_S1x128_S1x128_0_0
abbrev r4096 : Rect S4096x128 := Rect.unit (s := S4096x128) ![0, 0] S4096x128.size inb_S4096x128_S4096x128_0_0

/-! ## What each body leaves in its output buffer -/

/-- Region 0's output buffer after the body: x·W + b of the three input buffers' contents. -/
def out0 (x0 : Vec F S5000x128 .f32) (x1 : Vec F S128x128 .f32) (x2 : Vec F S1x128 .f32) : Vec F S5000x128 .f32 :=
  View.canon [⟨r5000, k0_pay1 (View.ld x0 r5000) (View.ld x1 r128) (View.ld x2 r1)⟩]

/-- Region 1's, likewise. -/
def out1 (x0 : Vec F S5000x128 .f32) (x1 : Vec F S128x128 .f32) (x2 : Vec F S1x128 .f32) : Vec F S5000x128 .f32 :=
  View.canon [⟨r5000, k1_pay1 (View.ld x0 r5000) (View.ld x1 r128) (View.ld x2 r1)⟩]

/-- Region 2's: the edge network of the six input buffers' contents. -/
def out2 (x0 x1 : Vec F S4096x128 .f32) (x2 : Vec F S128x128 .f32) (x3 : Vec F S1x128 .f32) (x4 : Vec F S128x128 .f32)
    (x5 : Vec F S1x128 .f32) : Vec F S4096x128 .f32 :=
  View.canon [⟨r4096, k2_pay1 (View.ld x0 r4096) (View.ld x1 r4096) (View.ld x2 r128) (View.ld x3 r1) (View.ld x4 r128) (View.ld x5 r1)⟩]

/-- One store over the whole buffer covers it. -/
theorem cover5000 (p0 : Vec F S5000x128 .f32) (y : S5000x128.Idx) :
    ∃ pc ∈ ([⟨r5000, p0⟩] : List (View.Piece (Elt F) S5000x128 .f32)), y ∈ pc.1.set :=
  View.cover_of_tiled [⟨r5000, p0⟩] S5000x128.size (by rfl) y

theorem cover4096 (p0 : Vec F S4096x128 .f32) (y : S4096x128.Idx) :
    ∃ pc ∈ ([⟨r4096, p0⟩] : List (View.Piece (Elt F) S4096x128 .f32)), y ∈ pc.1.set :=
  View.cover_of_tiled [⟨r4096, p0⟩] S4096x128.size (by rfl) y

/-! ## The triples -/

set_option maxHeartbeats 1000000 in
/-- Region 0's body on whole staging memrefs. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5000 _)

set_option maxHeartbeats 1000000 in
/-- Region 1's body on whole staging memrefs. -/
theorem sound_kernel1 (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5000 _)

set_option maxHeartbeats 2000000 in
/-- Region 2's body on whole staging memrefs. -/
theorem sound_kernel2 (c : Dev nD) (E : Set ℕ) (i : grid2.Coords)
    (arg1 : Memref sig .tc .vmem S4096x128 .f32) (harg1 : arg1.IsWhole) (arg2 : Memref sig .tc .vmem S4096x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S4096x128 .f32) (harg7 : arg7.IsWhole)
    (x0 x1 : Vec F S4096x128 .f32) (x2 : Vec F S128x128 .f32) (x3 : Vec F S1x128 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2 x0 x1 x2 x3 x4 x5)) -∗ K ⟨⟩))
      ⊢ wp frame (wpE (defs₀ (F := F)) Variants.none c none) E
          (cc2__mlp_kernel i arg1 harg1 arg2 harg2 arg3 harg3 arg4 harg4 arg5 harg5 arg6 harg6 arg7 harg7) K := by
  simp only [cc2__mlp_kernel_eq_skeleton]; unfold cc2__mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4096 _)

end Cert.KernelIdeal.Hand

end
-- ==== Proof.IdealRegs01.lean ====
/-
  The two linear-layer regions: their proof data and body obligations.

  At every grid point the pipeline hands the body the three input windows' current blocks (the row block of x, the whole
  of W, the whole of the bias row) and takes back the output window's buffer holding x·W + b of those blocks.
-/
import proofs.«132436_j89249420411231_1_alg».proof.Proof.IdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 0: a linear layer over 5000-row blocks, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0 on core `c`: the arrays as the region finds them; after the body each input's buffer
    at its block and the output's at x·W + b of the three input blocks; the scoped rest and the generator register as
    invariant; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1: a linear layer over 5000-row blocks, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1 on core `c`: the arrays as the region finds them; after the body each input's buffer
    at its block and the output's at x·W + b of the three input blocks; the scoped rest and the generator register as
    invariant; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealOuts.lean ====
/-
  Each body's stored value is the payload of the input buffers' whole contents: a store over the whole buffer of a value
  computed from whole-buffer loads.
-/
import proofs.«132436_j89249420411231_1_alg».proof.Proof.IdealBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

theorem hz2 : (![0, 0] : Fin 2 → Nat) = fun _ => 0 := funext fun a => by fin_cases a <;> rfl

theorem out0_eq (x0 : Vec F S5000x128 .f32) (x1 : Vec F S128x128 .f32) (x2 : Vec F S1x128 .f32) :
    out0 x0 x1 x2 = k0_pay1 x0 x1 x2 := by
  unfold out0
  rw [View.canon_unit_zero hz2]
  simp only [View.ld_unit_zero (S := S5000x128) hz2, View.ld_unit_zero (S := S128x128) hz2, View.ld_unit_zero (S := S1x128) hz2]

theorem out1_eq (x0 : Vec F S5000x128 .f32) (x1 : Vec F S128x128 .f32) (x2 : Vec F S1x128 .f32) :
    out1 x0 x1 x2 = k1_pay1 x0 x1 x2 := by
  unfold out1
  rw [View.canon_unit_zero hz2]
  simp only [View.ld_unit_zero (S := S5000x128) hz2, View.ld_unit_zero (S := S128x128) hz2, View.ld_unit_zero (S := S1x128) hz2]

theorem out2_eq (x0 x1 : Vec F S4096x128 .f32) (x2 : Vec F S128x128 .f32) (x3 : Vec F S1x128 .f32) (x4 : Vec F S128x128 .f32)
    (x5 : Vec F S1x128 .f32) : out2 x0 x1 x2 x3 x4 x5 = k2_pay1 x0 x1 x2 x3 x4 x5 := by
  unfold out2
  rw [View.canon_unit_zero hz2]
  simp only [View.ld_unit_zero (S := S4096x128) hz2, View.ld_unit_zero (S := S128x128) hz2, View.ld_unit_zero (S := S1x128) hz2]

/-- The column axis of region 2's row-block windows is never cut: all 128 columns move. -/
theorem xsize2_0_col (i : grid2.Coords) : win2_0.xsize i 1 = 128 := rfl
theorem xsize2_6_col (i : grid2.Coords) : win2_6.xsize i 1 = 128 := rfl
example (i : grid2.Coords) (J : S4096x128.Idx) : win2_6.moved i J = win2_0.moved i J := rfl
example (i : grid2.Coords) (J : S4096x128.Idx) : win2_1.moved i J = win2_0.moved i J := rfl

end Cert.KernelIdeal.Hand

end
-- ==== Proof.LibRows.lean ====
/-
  Rows of a matrix reduced along their length, and the matrix product, read one entry at a time on the extended
  reals.

  * Summing, or taking the maximum, along the rows of an `a × s` matrix leaves a length-`a` vector whose entry `r`
    is the sum (the maximum, folded from the starting value) of row `r`.
  * The product of an `m × k` matrix with a `k × n` matrix, accumulated into zero, has at `(p, q)` the sum over
    `c` of `l (p, c) · r (c, q)`: a contraction of the left operand's second axis with the right operand's first.
-/
import Idealize.ShloMosaic.Lib.ValueIdx
import Idealize.ShloMosaic.Lib.Pipeline.Value
import Idealize.ShloMosaic.PureOps.Ideal.Laws

namespace Cert.LibRows

open Idealize.ShloMosaic Idealize.ShloMosaic.ValueIdx

/-- The index a row reduction reads: the kept row coordinate, then the position along the row. -/
theorem lift_last2 {A S : ℕ} (h : (⟨2, ![A, S]⟩ : Shape).Reduces [1] ⟨1, ![A]⟩) (r : Fin A) (k : Fin S) :
    h.lift (ix1 r) k = ix2 r k :=
  funext fun a => Fin.ext (by
    match a with
    | ⟨0, _⟩ => rfl
    | ⟨1, _⟩ => rfl)

/-- The sum along the rows, at `r`: the sum of row `r`. -/
theorem sum_last2_apply {A S : ℕ} {φ : FTy} (x : FVec Ideal ⟨2, ![A, S]⟩ φ) (acc : BitVec φ.bits)
    (h : (⟨2, ![A, S]⟩ : Shape).Reduces [1] ⟨1, ![A]⟩) (hφ : FKind.Formats φ) (hacc : acc = FKind.add.neutral φ hφ)
    (r : Fin A) :
    multiReduction .add [1] ⟨1, ![A]⟩ x acc h hφ hacc (ix1 r) = ∑ k : Fin S, x (ix2 r k) :=
  (Ideal.multiReduction_add_single x acc h hφ hacc (ix1 r)).trans
    (Finset.sum_congr rfl fun k _ => congrArg x (lift_last2 h r k))

/-- The maximum along the rows, at `r`: the maximum of row `r`, folded from the starting value. -/
theorem max_last2_apply {A S : ℕ} {φ : FTy} (x : FVec Ideal ⟨2, ![A, S]⟩ φ) (acc : BitVec φ.bits)
    (h : (⟨2, ![A, S]⟩ : Shape).Reduces [1] ⟨1, ![A]⟩) (hφ : FKind.Formats φ) (hacc : acc = FKind.maximumf.neutral φ hφ)
    (r : Fin A) :
    multiReduction .maximumf [1] ⟨1, ![A]⟩ x acc h hφ hacc (ix1 r)
      = (Finset.univ : Finset (Fin S)).fold max (Ideal.ofBits φ acc) (fun k => x (ix2 r k)) :=
  (Ideal.multiReduction_maximumf_single x acc h hφ hacc (ix1 r)).trans
    (congrArg ((Finset.univ : Finset (Fin S)).fold max (Ideal.ofBits φ acc)) (funext fun k => congrArg x (lift_last2 h r k)))

/-- The matrix product into a zero accumulator, at `(p, q)`: the sum over `c` of `l (p, c) · r (c, q)`. The four
    hypotheses say which coordinate of the output index or of the contraction index each operand coordinate is. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : FVec Ideal ⟨2, ![M, K]⟩ φ₁) (r : FVec Ideal ⟨2, ![K, N]⟩ φ₂) (p : Fin M) (q : Fin N) :
    matmul D none l r (constant ⟨2, ![M, N]⟩ .f32 0x00000000#32) (ix2 p q) = ∑ c : Fin K, l (ix2 p c) * r (ix2 c q) := by
  refine (Ideal.matmul_constant_zero_apply D none l r (ix2 p q)).trans ?_
  rw [← Equiv.sum_comp (contrEquiv1 D K hr hs).symm]
  refine Finset.sum_congr rfl fun c _ => ?_
  have hc := contrEquiv1_symm_val D K hr hs c
  have el : D.lhsIdx (ix2 p q) ((contrEquiv1 D K hr hs).symm c) = ix2 p c := funext fun a => Fin.ext (by
    match a with
    | ⟨0, _⟩ => exact hl0 _ _
    | ⟨1, _⟩ => exact (hl1 _ _).trans hc)
  have er : D.rhsIdx (ix2 p q) ((contrEquiv1 D K hr hs).symm c) = ix2 c q := funext fun a => Fin.ext (by
    match a with
    | ⟨0, _⟩ => exact (hr0 _ _).trans hc
    | ⟨1, _⟩ => exact hr1 _ _)
  rw [el, er]

end Cert.LibRows
-- ==== Proof.LibDotHost.lean ====
/-
  The host's matrix product read one entry at a time on the extended reals.

  The product of an `m × k` matrix with a `k × n` matrix — a contraction of the left operand's second axis with
  the right operand's first — has at `(p, q)` the sum over `c` of `l (p, c) · r (c, q)`, whatever order the sum is
  scheduled in.
-/
import Idealize.ShloMosaic.Lib.ValueIdx
import Idealize.ShloMosaic.Lib.Pipeline.Value
import Idealize.ShloMosaic.PureOps.Ideal.Laws

namespace Cert.LibDotHost

open Idealize.ShloMosaic Idealize.ShloMosaic.ValueIdx

/-- The host product at `(p, q)`: the sum over `c` of `l (p, c) · r (c, q)`. The four hypotheses say which
    coordinate of the output index or of the contraction index each operand coordinate is. -/
theorem dotGeneral_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : FVec Ideal ⟨2, ![M, K]⟩ φ₁) (r : FVec Ideal ⟨2, ![K, N]⟩ φ₂) (p : Fin M) (q : Fin N) :
    Host.dotGeneral D none l r (ix2 p q) = ∑ c : Fin K, l (ix2 p c) * r (ix2 c q) := by
  refine (Ideal.dotGeneral_apply D none .single l r (ix2 p q)).trans ?_
  rw [← Equiv.sum_comp (contrEquiv1 D K hr hs).symm]
  refine Finset.sum_congr rfl fun c _ => ?_
  have hc := contrEquiv1_symm_val D K hr hs c
  have el : D.lhsIdx (ix2 p q) ((contrEquiv1 D K hr hs).symm c) = ix2 p c := funext fun a => Fin.ext (by
    match a with
    | ⟨0, _⟩ => exact hl0 _ _
    | ⟨1, _⟩ => exact (hl1 _ _).trans hc)
  have er : D.rhsIdx (ix2 p q) ((contrEquiv1 D K hr hs).symm c) = ix2 c q := funext fun a => Fin.ext (by
    match a with
    | ⟨0, _⟩ => exact (hr0 _ _).trans hc
    | ⟨1, _⟩ => exact hr1 _ _)
  rw [el, er]

end Cert.LibDotHost
-- ==== Proof.LibPlainDot.lean ====
/-
  The plain matrix product `(m × k) · (k × n)`, read one entry at a time on the extended reals, from the dimension
  numbers alone.

  A product whose dimension numbers say "no batch axes; the left operand keeps axis 0 and contracts axis 1; the right
  operand contracts axis 0 and keeps axis 1" has at `(p, q)` the sum over `c` of `l (p, c) · r (c, q)`, whether it is
  the host's `dot_general` or the matrix unit's product into a zero accumulator. The six lists are taken as equations,
  so a printed record discharges each by `rfl`.
-/
import proofs.«132436_j89249420411231_1_alg».proof.Proof.LibRows
import proofs.«132436_j89249420411231_1_alg».proof.Proof.LibDotHost

namespace Cert.LibPlainDot

open Idealize.ShloMosaic Idealize.ShloMosaic.ValueIdx

variable {M K N : ℕ} (D : DotDims ⟨2, ![M, K]⟩ ⟨2, ![K, N]⟩ ⟨2, ![M, N]⟩)
  (hlb : D.lhsBatch = []) (hrb : D.rhsBatch = []) (hln : D.lhsNonContracting = [0]) (hrn : D.rhsNonContracting = [1])
  (hlc : D.lhsContracting = [1]) (hrc : D.rhsContracting = [0])

include hlc in
/-- One contracted axis. -/
theorem contr_rank : D.contr.rank = 1 := D.rank_contr.trans (by rw [hlc]; rfl)

include hlc in
/-- Its extent is `K`. -/
theorem contr_size : D.contr.size ⟨0, by rw [contr_rank D hlc]; exact Nat.one_pos⟩ = K := by
  have hp : 0 < D.lhsContracting.length := by rw [hlc]; exact Nat.one_pos
  refine (D.size_contr 0 hp).trans ?_
  rw [List.getElem_of_eq hlc hp]
  rfl

include hlb hln in
/-- The left operand's row is the result's row. -/
theorem lhs_row (i : (⟨2, ![M, N]⟩ : Shape).Idx) (q : D.contr.Idx) : (D.lhsIdx i q 0).val = (i 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![M, N]⟩ : Shape).rank) (hb : b < (⟨2, ![M, N]⟩ : Shape).rank), a = b →
      (i ⟨a, ha⟩).val = (i ⟨b, hb⟩).val := fun a b ha hb h => by subst h; rfl
  exact key _ _ _ _ (by simp [hlb, hln])

include hrb hrn hlb hln in
/-- The right operand's column is the result's column. -/
theorem rhs_col (i : (⟨2, ![M, N]⟩ : Shape).Idx) (q : D.contr.Idx) : (D.rhsIdx i q 1).val = (i 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![M, N]⟩ : Shape).rank) (hb : b < (⟨2, ![M, N]⟩ : Shape).rank), a = b →
      (i ⟨a, ha⟩).val = (i ⟨b, hb⟩).val := fun a b ha hb h => by subst h; rfl
  exact key _ _ _ _ (by simp [hlb, hln, hrn])

include hlb hrb hln hrn hlc hrc in
/-- The matrix unit's product into a zero accumulator, at `(p, q)`. -/
theorem matmul_apply {φ₁ φ₂ : FTy} (l : FVec Ideal ⟨2, ![M, K]⟩ φ₁) (r : FVec Ideal ⟨2, ![K, N]⟩ φ₂) (p : Fin M) (q : Fin N) :
    matmul D none l r (constant ⟨2, ![M, N]⟩ .f32 0x00000000#32) (ix2 p q) = ∑ c : Fin K, l (ix2 p c) * r (ix2 c q) :=
  Cert.LibRows.matmul_zero_apply D (contr_rank D hlc) (contr_size D hlc) (lhs_row D hlb hln)
    (fun i k => D.lhsIdx_val_of_single hlc i k) (fun i k => D.rhsIdx_val_of_single hrc i k) (rhs_col D hlb hrb hln hrn) l r p q

include hlb hrb hln hrn hlc hrc in
/-- The host's product, at `(p, q)`. -/
theorem dotGeneral_apply {φ₁ φ₂ : FTy} (l : FVec Ideal ⟨2, ![M, K]⟩ φ₁) (r : FVec Ideal ⟨2, ![K, N]⟩ φ₂) (p : Fin M) (q : Fin N) :
    Host.dotGeneral D none l r (ix2 p q) = ∑ c : Fin K, l (ix2 p c) * r (ix2 c q) :=
  Cert.LibDotHost.dotGeneral_apply D (contr_rank D hlc) (contr_size D hlc) (lhs_row D hlb hln)
    (fun i k => D.lhsIdx_val_of_single hlc i k) (fun i k => D.rhsIdx_val_of_single hrc i k) (rhs_col D hlb hrb hln hrn) l r p q

end Cert.LibPlainDot
-- ==== Proof.IdealPay.lean ====
/-
  The three kernel bodies' stored values read one entry at a time on the extended reals.

  A linear layer's block: entry (p, q) of x·W + b is the sum over k of x (p, k) · W (k, q), plus b (0, q).
  The fused edge network's block: entry (p, q) depends on ROW p of the two gathered blocks only — the leaky rectifier
  of their sum, a 128×128 layer with bias, the rectifier again, a second 128×128 layer with bias, the rectifier.
-/
import proofs.«132436_j89249420411231_1_alg».proof.Proof.Gen.KernelIdeal.Skeleton
import proofs.«132436_j89249420411231_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

variable [Cert.KernelIdeal.Facts]

/-- The leaky rectifier on the extended reals, in the programs' own spelling: z where z ≥ 0, else the slope times z. -/
def lrelu (z : EReal) : EReal :=
  Scalar.select (FloatOps.cmpf (F := Ideal) .oge z (Scalar.ofBits (F := Ideal) .f32 0x00000000#32)) z
    ((Scalar.ofBits (F := Ideal) .f32 0x3C23D70A#32 : EReal) * z)

/-- Entry (p, q) of x·W + b for a bias row b of shape 1×128. -/
def lin {M : ℕ} (x : (⟨2, ![M, 128]⟩ : Shape).Idx → EReal) (w : S128x128.Idx → EReal) (b : S1x128.Idx → EReal)
    (p : Fin M) (q : Fin 128) : EReal :=
  (∑ k : Fin 128, x (ix2 p k) * w (ix2 k q)) + b (ix2 (0 : Fin 1) q)

/-- Row p of the fused edge network, at column q, from row p of the two gathered blocks. -/
def mlpRow (xr yr : Fin 128 → EReal) (W1 : S128x128.Idx → EReal) (b1 : S1x128.Idx → EReal)
    (W2 : S128x128.Idx → EReal) (b2 : S1x128.Idx → EReal) (q : Fin 128) : EReal :=
  lrelu ((∑ k : Fin 128, lrelu ((∑ j : Fin 128, lrelu (xr j + yr j) * W1 (ix2 j k)) + b1 (ix2 (0 : Fin 1) k)) * W2 (ix2 k q))
    + b2 (ix2 (0 : Fin 1) q))

/-- The 5000×128 by 128×128 block product accumulated into the zero block, at (p, q): the row-by-column sum. -/
theorem mm5000_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ c : Fin 128, l (ix2 p c) * r (ix2 c q) :=
  Cert.LibPlainDot.matmul_apply dot_S5000x128_S128x128_S5000x128_1_0_0_1_n_n rfl rfl rfl rfl rfl rfl l r p q

/-- The 4096×128 by 128×128 block product accumulated into the zero block, at (p, q): the row-by-column sum. -/
theorem mm4096_apply (l : FVec Ideal S4096x128 .bf16) (r : FVec Ideal S128x128 .bf16) (p : Fin 4096) (q : Fin 128) :
    matmul dot_S4096x128_S128x128_S4096x128_1_0_0_1_n_n none l r (constant (F := Ideal) S4096x128 .f32 0x00000000#32) (ix2 p q)
      = ∑ c : Fin 128, l (ix2 p c) * r (ix2 c q) :=
  Cert.LibPlainDot.matmul_apply dot_S4096x128_S128x128_S4096x128_1_0_0_1_n_n rfl rfl rfl rfl rfl rfl l r p q

/-- A 1×128 bias row, cast onto its own shape and spread over the rows of a block, reads at (p, q) the bias at (0, q). -/
theorem biasRow_apply {a : ℕ} (b : S1x128.Idx → EReal) (hc : S1x128.ShapeCasts S1x128)
    (hb : S1x128.Broadcasts ⟨2, ![a, 128]⟩) (p : Fin a) (q : Fin 128) :
    broadcastTo ⟨2, ![a, 128]⟩ (shapeCast S1x128 b hc) hb (ix2 p q) = b (ix2 (0 : Fin 1) q) :=
  (broadcastTo_1b_ab_apply (shapeCast S1x128 b hc) hb p q).trans (congrFun (shapeCast_self b hc) _)

theorem k0_pay1_apply (v0 : Vec Ideal S5000x128 .f32) (v2 : Vec Ideal S128x128 .f32) (v5 : Vec Ideal S1x128 .f32)
    (p : Fin 5000) (q : Fin 128) : k0_pay1 (F := Ideal) v0 v2 v5 (ix2 p q) = lin v0 v2 v5 p q := by
  unfold k0_pay1 lin
  refine congrArg₂ (· + ·) ?_ ?_
  · exact mm5000_apply _ _ p q
  · exact biasRow_apply v5 _ _ p q

theorem k1_pay1_apply (v0 : Vec Ideal S5000x128 .f32) (v2 : Vec Ideal S128x128 .f32) (v5 : Vec Ideal S1x128 .f32)
    (p : Fin 5000) (q : Fin 128) : k1_pay1 (F := Ideal) v0 v2 v5 (ix2 p q) = lin v0 v2 v5 p q := by
  unfold k1_pay1 lin
  refine congrArg₂ (· + ·) ?_ ?_
  · exact mm5000_apply _ _ p q
  · exact biasRow_apply v5 _ _ p q

/-- The rectifier's compare, multiply and select on a block, read at an index. -/
theorem lreluVec_apply {s : Shape} (z : FVec Ideal s .f32) (i : s.Idx) :
    select (cmpf .oge z (broadcast s (Scalar.ofBits (F := Ideal) .f32 0x00000000#32))) z
      (mulf (broadcast s (Scalar.ofBits (F := Ideal) .f32 0x3C23D70A#32)) z) i = lrelu (z i) := rfl

/-- One layer on a 4096-row block: the product of the narrowed input block by the narrowed weights accumulated into the
    zero block, plus the bias row spread over the rows, at (p, q). -/
theorem layer4096_apply (x : FVec Ideal S4096x128 .f32) (w : FVec Ideal S128x128 .f32) (b : S1x128.Idx → EReal)
    (hc : S1x128.ShapeCasts S1x128) (hb : S1x128.Broadcasts S4096x128) (h : FTy.bits .bf16 < FTy.bits .f32)
    (p : Fin 4096) (q : Fin 128) :
    addf (matmul dot_S4096x128_S128x128_S4096x128_1_0_0_1_n_n none (truncf .bf16 x h) (truncf .bf16 w h)
        (constant (F := Ideal) S4096x128 .f32 0x00000000#32))
      (broadcastTo S4096x128 (shapeCast S1x128 b hc) hb) (ix2 p q)
    = (∑ k : Fin 128, x (ix2 p k) * w (ix2 k q)) + b (ix2 (0 : Fin 1) q) :=
  congrArg₂ (· + ·) (mm4096_apply _ _ p q) (biasRow_apply b hc hb p q)

theorem k2_pay1_apply (v0 v2 : Vec Ideal S4096x128 .f32) (v11 : Vec Ideal S128x128 .f32) (v14 : Vec Ideal S1x128 .f32)
    (v24 : Vec Ideal S128x128 .f32) (v28 : Vec Ideal S1x128 .f32) (p : Fin 4096) (q : Fin 128) :
    k2_pay1 (F := Ideal) v0 v2 v11 v14 v24 v28 (ix2 p q)
      = mlpRow (fun j => v0 (ix2 p j)) (fun j => v2 (ix2 p j)) v11 v14 v24 v28 q := by
  unfold k2_pay1 mlpRow
  refine (lreluVec_apply _ (ix2 p q)).trans (congrArg lrelu ?_)
  refine (layer4096_apply _ _ v28 _ _ _ p q).trans ?_
  refine congrArg (· + v28 (ix2 (0 : Fin 1) q)) ?_
  refine Finset.sum_congr rfl fun k _ => ?_
  refine congrArg₂ (· * ·) ?_ (congrFun (shapeCast_self v24 _) (ix2 k q))
  refine (lreluVec_apply _ (ix2 p k)).trans (congrArg lrelu ?_)
  refine (layer4096_apply _ _ v14 _ _ _ p k).trans ?_
  refine congrArg (· + v14 (ix2 (0 : Fin 1) k)) ?_
  refine Finset.sum_congr rfl fun j _ => ?_
  refine congrArg (· * v11 (ix2 j k)) ?_
  refine (lreluVec_apply _ (ix2 p j)).trans (congrArg lrelu ?_)
  exact congrArg₂ (· + ·) (congrFun (shapeCast_self v0 _) (ix2 p j)) (congrFun (shapeCast_self v2 _) (ix2 p j))

end Cert.KernelIdeal.Hand

end
-- ==== Proof.IdealRegs2.lean ====
/-
  The edge-network region: its proof data and body obligation, on the extended reals.

  The two gathered arrays and the output have 1000000 rows, cut into 245 blocks of 4096 rows: the last block overhangs the
  arrays, and the rows of a staging buffer past the arrays' end hold words nothing names. Row p of the body's value
  depends on row p of the two gathered blocks only, so on the rows inside the array the output block is a function of
  the input blocks' rows inside the array, whatever the tail holds: that is all the pipeline's write-back reads.
-/
import proofs.«132436_j89249420411231_1_alg».proof.Proof.IdealRegs01
import proofs.«132436_j89249420411231_1_alg».proof.Proof.IdealOuts
import proofs.«132436_j89249420411231_1_alg».proof.Proof.IdealPay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (Pipeline.UD sig nD τ) ℕ

open Idealize.ShloMosaic.ValueIdx

variable (V : (c : Dev nD) → (b : Ref sig .tc) → Buf (Elt Ideal) ((c : Thread nD τ).loc b))

/-- Window `w`'s block at point `t`, its part inside the array, read off the array as the region finds it. -/
def iblk2 (c : Dev nD) (w : Fin cfg2.W) (t : Fin cfg2.N) : ((cfg2.win w).xblock (cfg2.grid.coords t)).Idx → Elt Ideal (cfg2.win w).elt :=
  ((cfg2.win w).blk t).view.read (Elt Ideal) (V c (Pipeline.arrRef spec2 w))

/-- A filler for the rows past the array's end, which nothing reads. -/
def zfill : S4096x128.Idx → Elt Ideal .f32 := fun _ => Scalar.ofBits (F := Ideal) .f32 0x00000000#32

/-- The two gathered blocks filled out to 4096 rows. -/
def fblk2_0 (c : Dev nD) (t : Fin cfg2.N) : S4096x128.Idx → Elt Ideal .f32 := win2_0.fill (grid2.coords t) zfill (iblk2 V c 0 t)
def fblk2_1 (c : Dev nD) (t : Fin cfg2.N) : S4096x128.Idx → Elt Ideal .f32 := win2_1.fill (grid2.coords t) zfill (iblk2 V c 1 t)

theorem before2_2_of {c : Dev nD} (dat : Dat τ (Elt Ideal) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt Ideal) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt Ideal) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt Ideal) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The proof data of pipeline 2 on core `c`. -/
def dat2 (c : Dev nD) : Dat τ (Elt Ideal) Unit ℕ (Pipeline.UD sig nD τ) ℕ cfg2 c where
  A w := V c (Pipeline.arrRef spec2 w)
  after w t := match w with
    | ⟨0, _⟩ => fblk2_0 V c t
    | ⟨1, _⟩ => fblk2_1 V c t
    | ⟨2, _⟩ => iblk2 V c 2 t
    | ⟨3, _⟩ => iblk2 V c 3 t
    | ⟨4, _⟩ => iblk2 V c 4 t
    | ⟨5, _⟩ => iblk2 V c 5 t
    | ⟨6, _⟩ => out2 (fblk2_0 V c t) (fblk2_1 V c t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = fblk2_0 V c t := by dsimp only [dat2]
theorem after2_1 (c : Dev nD) (t : Fin cfg2.N) : (dat2 V c).after 1 t = fblk2_1 V c t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2 (fblk2_0 V c t) (fblk2_1 V c t) (iblk2 V c 2 t) (iblk2 V c 3 t) (iblk2 V c 4 t) (iblk2 V c 5 t) := by dsimp only [dat2]

/-- The gathered windows are fetched at every point: the body finds the block on the rows inside the array, `d` elsewhere. -/
theorem before2_0 (c : Dev nD) (t : Fin cfg2.N) (d) :
    (dat2 V c).before 0 t d = win2_0.fill (grid2.coords t) d (iblk2 V c 0 t) := by
  unfold Dat.before; rw [if_pos (fetch2_0 t)]; unfold Dat.fetched Dat.blockOf iblk2; rw [A_eq2]; try rfl
theorem before2_1 (c : Dev nD) (t : Fin cfg2.N) (d) :
    (dat2 V c).before 1 t d = win2_1.fill (grid2.coords t) d (iblk2 V c 1 t) := by
  unfold Dat.before; rw [if_pos (fetch2_1 t)]; unfold Dat.fetched Dat.blockOf iblk2; rw [A_eq2]; try rfl
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## Row-locality of the body's value -/

/-- A filled block at a row inside the array is the block there, whatever the filler. -/
theorem fill_moved (i : grid2.Coords) (d d' : S4096x128.Idx → Elt Ideal .f32) (g : (win2_0.xblock i).Idx → Elt Ideal .f32)
    (J : S4096x128.Idx) (h : win2_0.moved i J = true) : win2_0.fill i d g J = win2_0.fill i d' g J := by
  unfold Window.fill; rw [dif_pos h, dif_pos h]

/-- All of a row inside the array moves: the column axis is never cut. -/
theorem moved_row (i : grid2.Coords) (p : Fin 4096) (q k : Fin 128) (h : win2_0.moved i (ix2 p q) = true) :
    win2_0.moved i (ix2 p k) = true := by
  rw [Window.moved_iff] at h ⊢
  intro a
  match a with
  | ⟨0, _⟩ => exact h 0
  | ⟨1, _⟩ => show k.val < win2_0.xsize i 1; rw [xsize2_0_col]; exact k.isLt

/-- THE ROW-LOCALITY: on the rows inside the array, the network's value of two filled blocks does not depend on the fillers. -/
theorem out2_cut_congr (i : grid2.Coords) (d0 d0' d1 d1' : S4096x128.Idx → Elt Ideal .f32)
    (g0 : (win2_0.xblock i).Idx → Elt Ideal .f32) (g1 : (win2_1.xblock i).Idx → Elt Ideal .f32)
    (x2 : Vec Ideal S128x128 .f32) (x3 : Vec Ideal S1x128 .f32) (x4 : Vec Ideal S128x128 .f32) (x5 : Vec Ideal S1x128 .f32) :
    win2_6.cut i (out2 (win2_0.fill i d0 g0) (win2_1.fill i d1 g1) x2 x3 x4 x5)
      = win2_6.cut i (out2 (win2_0.fill i d0' g0) (win2_1.fill i d1' g1) x2 x3 x4 x5) := by
  rw [out2_eq, out2_eq]
  funext j
  show k2_pay1 _ _ x2 x3 x4 x5 (win2_6.xinj i j) = k2_pay1 _ _ x2 x3 x4 x5 (win2_6.xinj i j)
  have hm : win2_0.moved i (win2_6.xinj i j) = true := win2_6.moved_xinj i j
  generalize win2_6.xinj i j = J at hm
  obtain ⟨p, q, rfl⟩ : ∃ (p : Fin 4096) (q : Fin 128), J = ix2 p q := ⟨J 0, J 1, eq_ix2 J⟩
  rw [k2_pay1_apply, k2_pay1_apply]
  have e0 : (fun k : Fin 128 => win2_0.fill i d0 g0 (ix2 p k)) = fun k => win2_0.fill i d0' g0 (ix2 p k) :=
    funext fun k => fill_moved i d0 d0' g0 _ (moved_row i p q k hm)
  have e1 : (fun k : Fin 128 => win2_1.fill i d1 g1 (ix2 p k)) = fun k => win2_1.fill i d1' g1 (ix2 p k) :=
    funext fun k => fill_moved i d1 d1' g1 _ (moved_row i p q k hm)
  rw [e0, e1]

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns: the clipped windows' buffers stated on the rows inside the array only. -/
def bodyPost2 (c : Dev nD) (t : Fin cfg2.N) : sProp 𝕄 :=
  iprop((dat2 V c).Φ t.succ ∗ (dat2 V c).owesAt () t.succ
    ∗ (∃ d, owns (c : Thread nD τ) (st2_0 t) fullShare ((cfg2.win 0).fill (cfg2.grid.coords t) d ((cfg2.win 0).cut (cfg2.grid.coords t) ((dat2 V c).after 0 t))))
    ∗ (∃ d, owns (c : Thread nD τ) (st2_1 t) fullShare ((cfg2.win 1).fill (cfg2.grid.coords t) d ((cfg2.win 1).cut (cfg2.grid.coords t) ((dat2 V c).after 1 t))))
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ (∃ d, owns (c : Thread nD τ) (st2_6 t) fullShare ((cfg2.win 6).fill (cfg2.grid.coords t) d ((cfg2.win 6).cut (cfg2.grid.coords t) ((dat2 V c).after 6 t)))))

theorem sound_body2 (c : Dev nD) (t : Fin cfg2.N) :
    bodyPre2 V c t ⊢ wp frame (wpE (defs₀ (F := Ideal)) Variants.none c none) Set.univ (bodyAt2 t) (fun _ => bodyPost2 V c t) := by
  unfold bodyPre2 bodyPost2 bodyAt2
  simp only [before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before2_0 V c t d0, before2_1 V c t d1]
  iapply (sound_kernel2 (F := Ideal) c Set.univ (grid2.coords t) _ _ _ _ _ _ _ _ _ _ _ _ _ _
    (win2_0.fill (grid2.coords t) d0 (iblk2 V c 0 t)) (win2_1.fill (grid2.coords t) d1 (iblk2 V c 1 t))
    (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  have hx : win2_0.cut (grid2.coords t) (fblk2_0 V c t) = iblk2 V c 0 t := win2_0.cut_fill _ _ _
  have hy : win2_1.cut (grid2.coords t) (fblk2_1 V c t) = iblk2 V c 1 t := win2_1.cut_fill _ _ _
  isplitl [H0]
  · iexists d0
    change _ ⊢ owns (c : Thread nD τ) (st2_0 t) fullShare (win2_0.fill (grid2.coords t) d0 (win2_0.cut (grid2.coords t) (fblk2_0 V c t)))
    rw [hx]; try iexact H0
  isplitl [H1]
  · iexists d1
    change _ ⊢ owns (c : Thread nD τ) (st2_1 t) fullShare (win2_1.fill (grid2.coords t) d1 (win2_1.cut (grid2.coords t) (fblk2_1 V c t)))
    rw [hy]; try iexact H1
  isplitl [H2]; · iexact H2
  isplitl [H3]; · iexact H3
  isplitl [H4]; · iexact H4
  isplitl [H5]; · iexact H5
  iexists (out2 (win2_0.fill (grid2.coords t) d0 (iblk2 V c 0 t)) (win2_1.fill (grid2.coords t) d1 (iblk2 V c 1 t))
    (iblk2 V c 2 t) (iblk2 V c 3 t) (iblk2 V c 4 t) (iblk2 V c 5 t))
  change _ ⊢ owns (c : Thread nD τ) (st2_6 t) fullShare (win2_6.fill (grid2.coords t) _ (win2_6.cut (grid2.coords t)
    (out2 (win2_0.fill (grid2.coords t) zfill (iblk2 V c 0 t)) (win2_1.fill (grid2.coords t) zfill (iblk2 V c 1 t)) (iblk2 V c 2 t) (iblk2 V c 3 t) (iblk2 V c 4 t) (iblk2 V c 5 t))))
  rw [win2_6.fill_congr_cut (grid2.coords t) (out2_cut_congr (grid2.coords t) d0 zfill d1 zfill (iblk2 V c 0 t) (iblk2 V c 1 t)
    (iblk2 V c 2 t) (iblk2 V c 3 t) (iblk2 V c 4 t) (iblk2 V c 5 t))]
  try iexact H6

/-- The body obligation, at every point: the clipped windows stated on the rows inside the array. -/
theorem body_obligation2 (c : Dev nD) : BodyObligationLoose (dat2 V c) (defs₀ (F := Ideal)) Variants.none () Set.univ := fun t => by
  rw [bigSep_W2, bigSep_W2]
  exact sound_body2 V c t

end Cert.KernelIdeal.Hand

end
-- ==== Proof.IdealRunCond.lean ====
/-
  The run of the idealized kernel program from its regions' records, with the result array read beside the arguments.

  The program is a list of segments: host stretches and three kernel regions. Given each region's record entered from
  and left at the valuations between the items, every weakly fair execution terminates; the final memory is read
  against the last valuation at the result array and at every argument array.
-/
import proofs.«132436_j89249420411231_1_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in
/-- The run given the regions' records, with the RESULT read beside the arguments: every weakly fair execution of @main
    from memory `m` with zero counters terminates, every final memory holds each argument as launched and the result array
    `main_v23` at what the last valuation gives it. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c)) :
    θ_run defs (onTc (τ := τ) (main (F := F))) ⟨m, fun _ => 0, ρ⟩ (fun r => ∀ c : Dev nD,
      r.2.mem ((c.tc : Thread nD τ).loc main_v23) = V11 m outs c main_v23
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m outs c))
    (hch := fun c => ⟨.rfl, hpre0 c, hpost0 c, hpre1 c, hpost1 c, .rfl, .rfl, .rfl, .rfl, hpre2 c, hpost2 c, sep_mono .rfl (hE3 c)⟩)
    (hinit := ?_) (QY := fun c s => s.mem ((c.tc : Thread nD τ).loc main_v23) = V11 m outs c main_v23 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact ⟨(h (Proc.devRef .tc main_v23) (Finset.mem_filter.mpr ⟨StableHlo.devRef_mem_tcRefs main_v23, by decide⟩)),
        (h (Proc.devRef .tc main_arg0) (Finset.mem_filter.mpr ⟨StableHlo.devRef_mem_tcRefs main_arg0, by decide⟩)).trans (V11_main_arg0 m outs c),
        (h (Proc.devRef .tc main_arg1) (Finset.mem_filter.mpr ⟨StableHlo.devRef_mem_tcRefs main_arg1, by decide⟩)).trans (V11_main_arg1 m outs c),
        (h (Proc.devRef .tc main_arg2) (Finset.mem_filter.mpr ⟨StableHlo.devRef_mem_tcRefs main_arg2, by decide⟩)).trans (V11_main_arg2 m outs c),
        (h (Proc.devRef .tc main_arg3) (Finset.mem_filter.mpr ⟨StableHlo.devRef_mem_tcRefs main_arg3, by decide⟩)).trans (V11_main_arg3 m outs c),
        (h (Proc.devRef .tc main_arg4) (Finset.mem_filter.mpr ⟨StableHlo.devRef_mem_tcRefs main_arg4, by decide⟩)).trans (V11_main_arg4 m outs c),
        (h (Proc.devRef .tc main_arg5) (Finset.mem_filter.mpr ⟨StableHlo.devRef_mem_tcRefs main_arg5, by decide⟩)).trans (V11_main_arg5 m outs c),
        (h (Proc.devRef .tc main_arg6) (Finset.mem_filter.mpr ⟨StableHlo.devRef_mem_tcRefs main_arg6, by decide⟩)).trans (V11_main_arg6 m outs c),
        (h (Proc.devRef .tc main_arg7) (Finset.mem_filter.mpr ⟨StableHlo.devRef_mem_tcRefs main_arg7, by decide⟩)).trans (V11_main_arg7 m outs c),
        (h (Proc.devRef .tc main_arg8) (Finset.mem_filter.mpr ⟨StableHlo.devRef_mem_tcRefs main_arg8, by decide⟩)).trans (V11_main_arg8 m outs c),
        (h (Proc.devRef .tc main_arg9) (Finset.mem_filter.mpr ⟨StableHlo.devRef_mem_tcRefs main_arg9, by decide⟩)).trans (V11_main_arg9 m outs c),
        (h (Proc.devRef .tc main_arg10) (Finset.mem_filter.mpr ⟨StableHlo.devRef_mem_tcRefs main_arg10, by decide⟩)).trans (V11_main_arg10 m outs c),
        (h (Proc.devRef .tc main_arg11) (Finset.mem_filter.mpr ⟨StableHlo.devRef_mem_tcRefs main_arg11, by decide⟩)).trans (V11_main_arg11 m outs c)⟩
    · iexact HSI

end Cert.KernelIdeal.Hand

end
-- ==== Proof.IdealRun.lean ====
/-
  The idealized kernel program's run: three kernel regions among stretches of host operations.

  Between two items of @main every unscoped buffer is held at a known valuation: the launch contents, folded through each
  host stretch, with each region's output array replaced by what the pipeline's write-backs leave. The regions'
  outputs enter as unknowns tied to the pipelines' final arrays by three equations.
-/
import proofs.«132436_j89249420411231_1_alg».proof.Proof.IdealRegs2
import proofs.«132436_j89249420411231_1_alg».proof.Proof.IdealRunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (Pipeline.UD sig nD τ) ℕ

variable (m : (ℓ : Loc nD τ sig) → Buf (Elt Ideal) ℓ) (outs : Outs (F := Ideal))

/-- The valuations before and after each region, read at the TensorCore's references. -/
abbrev VV1 : (c : Dev nD) → (b : Ref sig .tc) → Buf (Elt Ideal) ((c : Thread nD τ).loc b) := fun c b => V1 m c b
abbrev VV2 : (c : Dev nD) → (b : Ref sig .tc) → Buf (Elt Ideal) ((c : Thread nD τ).loc b) := fun c b => V2 m outs c b
abbrev VV3 : (c : Dev nD) → (b : Ref sig .tc) → Buf (Elt Ideal) ((c : Thread nD τ).loc b) := fun c b => V3 m outs c b
abbrev VV4 : (c : Dev nD) → (b : Ref sig .tc) → Buf (Elt Ideal) ((c : Thread nD τ).loc b) := fun c b => V4 m outs c b
abbrev VV9 : (c : Dev nD) → (b : Ref sig .tc) → Buf (Elt Ideal) ((c : Thread nD τ).loc b) := fun c b => V9 m outs c b
abbrev VV10 : (c : Dev nD) → (b : Ref sig .tc) → Buf (Elt Ideal) ((c : Thread nD τ).loc b) := fun c b => V10 m outs c b

/-- Every pipeline's proof data, each at its region's entry contents. -/
def pdats : (p : Fin 3) → (c : Dev nD) → Dat τ (Elt Ideal) Unit ℕ (Pipeline.UD sig nD τ) ℕ (cfgs p) c
  | ⟨0, _⟩ => fun c => dat0 (VV1 m) c
  | ⟨1, _⟩ => fun c => dat1 (VV3 m outs) c
  | ⟨2, _⟩ => fun c => dat2 (VV9 m outs) c

/-- The three equations that tie the unknowns to the pipelines' final arrays. -/
structure OutsOk : Prop where
  h0 : ∀ c, outs 2 main_v1 c = (dat0 (VV1 m) c).arrAt 3 cfg0.N
  h1 : ∀ c, outs 4 main_v3 c = (dat1 (VV3 m outs) c).arrAt 3 cfg1.N
  h2 : ∀ c, outs 10 main_v22 c = (dat2 (VV9 m outs) c).arrAt 6 cfg2.N

abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)

/-! ## Each region's arrays at its exit -/

theorem hF0 (hO : OutsOk m outs) (c : Dev nD) (w : Fin cfg0.W) : (dat0 (VV1 m) c).arrAt w cfg0.N = VV2 m outs c (Pipeline.arrRef spec0 w) := by
  match w with
  | ⟨0, _⟩ => exact ((dat0 (VV1 m) c).arrAt_in 0 rfl _).trans ((A_eq0 (VV1 m) c 0).trans (V2_of m outs c main_arg0 (by decide)).symm)
  | ⟨1, _⟩ => exact ((dat0 (VV1 m) c).arrAt_in 1 rfl _).trans ((A_eq0 (VV1 m) c 1).trans (V2_of m outs c main_arg4 (by decide)).symm)
  | ⟨2, _⟩ => exact ((dat0 (VV1 m) c).arrAt_in 2 rfl _).trans ((A_eq0 (VV1 m) c 2).trans (V2_of m outs c main_v0 (by decide)).symm)
  | ⟨3, _⟩ => exact (hO.h0 c).symm.trans (by show _ = V2 m outs c main_v1; simp only [V2, Function.update_self])

theorem hrest0 (c : Dev nD) : ∀ b, b ∉ Finset.univ.image (Pipeline.arrRef spec0) → VV2 m outs c b = VV1 m c b :=
  fun b hb => V2_of m outs c b (fun hm => hb (Finset.mem_image.mpr ⟨3, Finset.mem_univ _, (List.mem_singleton.mp hm).symm⟩))

theorem hF1 (hO : OutsOk m outs) (c : Dev nD) (w : Fin cfg1.W) : (dat1 (VV3 m outs) c).arrAt w cfg1.N = VV4 m outs c (Pipeline.arrRef spec1 w) := by
  match w with
  | ⟨0, _⟩ => exact ((dat1 (VV3 m outs) c).arrAt_in 0 rfl _).trans ((A_eq1 (VV3 m outs) c 0).trans (V4_of m outs c main_arg1 (by decide)).symm)
  | ⟨1, _⟩ => exact ((dat1 (VV3 m outs) c).arrAt_in 1 rfl _).trans ((A_eq1 (VV3 m outs) c 1).trans (V4_of m outs c main_arg6 (by decide)).symm)
  | ⟨2, _⟩ => exact ((dat1 (VV3 m outs) c).arrAt_in 2 rfl _).trans ((A_eq1 (VV3 m outs) c 2).trans (V4_of m outs c main_v2 (by decide)).symm)
  | ⟨3, _⟩ => exact (hO.h1 c).symm.trans (by show _ = V4 m outs c main_v3; simp only [V4, Function.update_self])

theorem hrest1 (c : Dev nD) : ∀ b, b ∉ Finset.univ.image (Pipeline.arrRef spec1) → VV4 m outs c b = VV3 m outs c b :=
  fun b hb => V4_of m outs c b (fun hm => hb (Finset.mem_image.mpr ⟨3, Finset.mem_univ _, (List.mem_singleton.mp hm).symm⟩))

theorem hF2 (hO : OutsOk m outs) (c : Dev nD) (w : Fin cfg2.W) : (dat2 (VV9 m outs) c).arrAt w cfg2.N = VV10 m outs c (Pipeline.arrRef spec2 w) := by
  match w with
  | ⟨0, _⟩ => exact ((dat2 (VV9 m outs) c).arrAt_in 0 rfl _).trans ((A_eq2 (VV9 m outs) c 0).trans (V10_of m outs c main_v10 (by decide)).symm)
  | ⟨1, _⟩ => exact ((dat2 (VV9 m outs) c).arrAt_in 1 rfl _).trans ((A_eq2 (VV9 m outs) c 1).trans (V10_of m outs c main_v17 (by decide)).symm)
  | ⟨2, _⟩ => exact ((dat2 (VV9 m outs) c).arrAt_in 2 rfl _).trans ((A_eq2 (VV9 m outs) c 2).trans (V10_of m outs c main_arg8 (by decide)).symm)
  | ⟨3, _⟩ => exact ((dat2 (VV9 m outs) c).arrAt_in 3 rfl _).trans ((A_eq2 (VV9 m outs) c 3).trans (V10_of m outs c main_v18 (by decide)).symm)
  | ⟨4, _⟩ => exact ((dat2 (VV9 m outs) c).arrAt_in 4 rfl _).trans ((A_eq2 (VV9 m outs) c 4).trans (V10_of m outs c main_v19 (by decide)).symm)
  | ⟨5, _⟩ => exact ((dat2 (VV9 m outs) c).arrAt_in 5 rfl _).trans ((A_eq2 (VV9 m outs) c 5).trans (V10_of m outs c main_v21 (by decide)).symm)
  | ⟨6, _⟩ => exact (hO.h2 c).symm.trans (by show _ = V10 m outs c main_v22; simp only [V10, Function.update_self])

theorem hrest2 (c : Dev nD) : ∀ b, b ∉ Finset.univ.image (Pipeline.arrRef spec2) → VV10 m outs c b = VV9 m outs c b :=
  fun b hb => V10_of m outs c b (fun hm => hb (Finset.mem_image.mpr ⟨6, Finset.mem_univ _, (List.mem_singleton.mp hm).symm⟩))

/-! ## The regions as segments -/

set_option backward.isDefEq.respectTransparency.types false in
/-- REGION 0 over the thread state: entered from every unscoped buffer at the contents before it, left at those after
    it — its arrays split out of the unscoped buffers and put back at their exit contents; the generator register into
    the invariant and out; nothing owed; no semaphore of the kernel's own. -/
def reg0 (hO : OutsOk m outs) : Pipeline.RegionSeg (pcfgs (F := Ideal)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := Pipeline.UD sig nD τ) (Lvl := ℕ) spec0 c (VV1 m c)
  hentry c := by
    rw [Pipeline.ownSems0_none]
    have hsplit := Pipeline.arrays_of_unscopedBufs (p := 0) (pcfgs (F := Ideal)) adm (pdats m outs) launch0.win launch0.arr_whole c
      ((pdats m outs 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := Pipeline.UD sig nD τ) (Lvl := ℕ)
      launch0.win launch0.arr_whole c (pdats m outs) ((pdats m outs 0 c).share_full fun _ => rfl)
      (VV1 m c) (VV2 m outs c) ((pdats m outs 0 c).arrAt · cfg0.N) (hF0 m outs hO c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents before it, left at those after
    it — its arrays split out of the unscoped buffers and put back at their exit contents; the generator register into
    the invariant and out; nothing owed; no semaphore of the kernel's own. -/
def reg1 (hO : OutsOk m outs) : Pipeline.RegionSeg (pcfgs (F := Ideal)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV3 m outs) c).loose
  hwaits := Pipeline.hwaits_of_owed_zero _ _ _ _ L lv 1 fun _ _ => rfl
  pre c := iprop(StableHlo.held (c : Thread nD τ) (Pipeline.ucRefs τ sig) (V3 m outs c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := Pipeline.UD sig nD τ) (Lvl := ℕ) spec1 c (VV3 m outs c)
  hentry c := by
    rw [Pipeline.ownSems0_none]
    have hsplit := Pipeline.arrays_of_unscopedBufs (p := 1) (pcfgs (F := Ideal)) adm (pdats m outs) launch1.win launch1.arr_whole c
      ((pdats m outs 1 c).share_full fun _ => rfl) (VV3 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := Pipeline.UD sig nD τ) (Lvl := ℕ)
      launch1.win launch1.arr_whole c (pdats m outs) ((pdats m outs 1 c).share_full fun _ => rfl)
      (VV3 m outs c) (VV4 m outs c) ((pdats m outs 1 c).arrAt · cfg1.N) (hF1 m outs hO c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at the contents before it, left at those after
    it — its arrays split out of the unscoped buffers and put back at their exit contents; the generator register into
    the invariant and out; nothing owed; no semaphore of the kernel's own. -/
def reg2 (hO : OutsOk m outs) : Pipeline.RegionSeg (pcfgs (F := Ideal)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := body_obligation2 (VV9 m outs) c
  hwaits := Pipeline.hwaits_of_owed_zero _ _ _ _ L lv 2 fun _ _ => rfl
  pre c := iprop(StableHlo.held (c : Thread nD τ) (Pipeline.ucRefs τ sig) (V9 m outs c) ∗ R c)
  post c := iprop(StableHlo.held (c : Thread nD τ) (Pipeline.ucRefs τ sig) (V10 m outs c) ∗ R c)
  X c := iprop(∃ r, prngReg c r)
  Y c := iprop(∃ r, prngReg c r)
  Z c := Pipeline.unscopedRest (Ix := Unit) (Name := ℕ) (U := Pipeline.UD sig nD τ) (Lvl := ℕ) spec2 c (VV9 m outs c)
  hentry c := by
    rw [Pipeline.ownSems0_none]
    have hsplit := Pipeline.arrays_of_unscopedBufs (p := 2) (pcfgs (F := Ideal)) adm (pdats m outs) launch2.win launch2.arr_whole c
      ((pdats m outs 2 c).share_full fun _ => rfl) (VV9 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := Pipeline.UD sig nD τ) (Lvl := ℕ)
      launch2.win launch2.arr_whole c (pdats m outs) ((pdats m outs 2 c).share_full fun _ => rfl)
      (VV9 m outs c) (VV10 m outs c) ((pdats m outs 2 c).arrAt · cfg2.N) (hF2 m outs hO c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the idealized kernel program from memory `m` with zero counters terminates, the
    result array ends at what the last valuation gives it and every argument array as launched. -/
theorem run_main (hO : OutsOk m outs) (ρ : Dev nD → PrngReg) :
    θ_run defs (onTc (τ := τ) (main (F := Ideal))) ⟨m, fun _ => 0, ρ⟩ (fun r => ∀ c : Dev nD,
      r.2.mem ((c.tc : Thread nD τ).loc main_v23) = V11 m outs c main_v23
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  by
  have hu₀ : (ownU ((initOf (Pipeline.cells cfgs cellOf_inj) (Pipeline.launchToks cfgs cellOf_inj), 1) : Pipeline.UD sig nD τ) : sProp 𝕄)
      ⊢ |={Set.univ}=> iprop(BI.own (embL (initOf (Pipeline.cells cfgs cellOf_inj) (Pipeline.launchToks cfgs cellOf_inj)))
          ∗ bigSep Finset.univ (fun _ : Dev nD => (iprop(emp) : sProp 𝕄))) := by
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  have hcore : ∀ c : Dev nD, (iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)) : sProp 𝕄) ⊢ R c := fun c => by
    iintro ⟨-, HO, -, Hp, -⟩
    isplitl [Hp]; · iexists _; iexact Hp
    iexists ∅; iexact HO
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ⊢ (bigSep Finset.univ (fun c : Dev nD => R c) : sProp 𝕄) :=
    bigSep_mono fun c _ => hcore c
  have hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R c) : sProp 𝕄) := by
    iintro ⟨H, -⟩
    imodintro
    iapply hmono; iexact H
  have hE3 : ∀ c : Dev nD, R c ⊢ (iprop(∃ W, owes (c : Thread nD τ) (0 : CellTallies nD τ sig Unit) W) : sProp 𝕄) := fun c => by
    iintro ⟨-, HO⟩; iexact HO
  exact run_cond (F := Ideal) m embL () 𝒱₀ L lv (fun _ _ => rfl) ρ outs (pdats m outs) 0 (fun _ => iprop(emp))
    (initOf (Pipeline.cells cfgs cellOf_inj) (Pipeline.launchToks cfgs cellOf_inj), 1) hu₀
    (fun _ c => R c) hE0 hE3
    (reg0 m outs hO) (fun _ => .rfl) (fun _ => .rfl)
    (reg1 m outs hO) (fun _ => .rfl) (fun _ => .rfl)
    (reg2 m outs hO) (fun _ => .rfl) (fun _ => .rfl)

end Cert.KernelIdeal.Hand

end
-- ==== Proof.ValLin.lean ====
/-
  The two linear-layer regions' output arrays as whole-array functions, on the extended reals.

  Point t writes back rows 5000·t … 5000·t + 4999 of x·W + b; the blocks tile the array, so after the region the array
  is x·W + b, entry by entry.
-/
import proofs.«132436_j89249420411231_1_alg».proof.Proof.IdealRegs01
import proofs.«132436_j89249420411231_1_alg».proof.Proof.IdealOuts
import proofs.«132436_j89249420411231_1_alg».proof.Proof.IdealPay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

/-- x·W + b over whole arrays: entry (r, q) is the sum over k of x (r, k) · W (k, q), plus b (0, q). -/
def GLin {M : ℕ} (x : (⟨2, ![M, 128]⟩ : Shape).Idx → EReal) (w : S128x128.Idx → EReal) (b : S1x128.Idx → EReal) :
    (⟨2, ![M, 128]⟩ : Shape).Idx → EReal := fun i => lin x w b (i 0) (i 1)

variable (V : (c : Dev nD) → (b : Ref sig .tc) → Buf (Elt Ideal) ((c : Thread nD τ).loc b))

/-! ## Region 0 -/

/-- The printed index maps over the grid: the row-block windows sit at block (t, 0), the weights and the bias at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of x·W + b of the arrays as the region finds them. -/
theorem flushed0_eq (c : Dev nD) (t : Fin cfg0.N) :
    (dat0 V c).flushed 3 t = ((cfg0.win 3).blk t).view.read (Elt Ideal) (GLin (V c main_arg0) (V c main_arg4) (V c main_v0)) := by
  show (cfg0.win 3).cut (grid0.coords t) ((dat0 V c).after 3 t) = _
  rw [after0_3, out0_eq]
  obtain ⟨e00, e01, e10, e11, e20, e21, e30, e31⟩ := idx0 t
  refine funext fun (j : S5000x128.Idx) => ?_
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = GLin (V c main_arg0) (V c main_arg4) (V c main_v0) (((cfg0.win 3).blk t).view.emb (ix2 p q))
  rw [k0_pay1_apply]
  unfold lin GLin lin
  have h0 : ∀ k : Fin 128, iblk0 V c 0 t (ix2 p k) = V c main_arg0 (ix2 ((((cfg0.win 3).blk t).view.emb (ix2 p q)) 0) k) := fun k => by
    show V c main_arg0 (((cfg0.win 0).blk t).view.emb (ix2 p k)) = _
    refine congrArg _ (funext fun a => Fin.ext ?_)
    match a with
    | ⟨0, _⟩ => show win0_0.index t (0 : Fin 2) * 5000 + 1 * p.val = win0_3.index t (0 : Fin 2) * 5000 + 1 * p.val; rw [e00, e30]
    | ⟨1, _⟩ => show win0_0.index t (1 : Fin 2) * 128 + 1 * k.val = k.val; rw [e01]; omega
  have h1 : ∀ k : Fin 128, iblk0 V c 1 t (ix2 k q) = V c main_arg4 (ix2 k ((((cfg0.win 3).blk t).view.emb (ix2 p q)) 1)) := fun k => by
    show V c main_arg4 (((cfg0.win 1).blk t).view.emb (ix2 k q)) = _
    refine congrArg _ (funext fun a => Fin.ext ?_)
    match a with
    | ⟨0, _⟩ => show win0_1.index t (0 : Fin 2) * 128 + 1 * k.val = k.val; rw [e10]; omega
    | ⟨1, _⟩ => show win0_1.index t (1 : Fin 2) * 128 + 1 * q.val = win0_3.index t (1 : Fin 2) * 128 + 1 * q.val; rw [e11, e31]
  have h2 : iblk0 V c 2 t (ix2 (0 : Fin 1) q) = V c main_v0 (ix2 (0 : Fin 1) ((((cfg0.win 3).blk t).view.emb (ix2 p q)) 1)) := by
    show V c main_v0 (((cfg0.win 2).blk t).view.emb (ix2 (0 : Fin 1) q)) = _
    refine congrArg _ (funext fun a => Fin.ext ?_)
    match a with
    | ⟨0, _⟩ => show win0_2.index t (0 : Fin 2) * 1 + 1 * 0 = 0; rw [e20]
    | ⟨1, _⟩ => show win0_2.index t (1 : Fin 2) * 128 + 1 * q.val = win0_3.index t (1 : Fin 2) * 128 + 1 * q.val; rw [e21, e31]
  rw [h2]
  exact congrArg (· + _) (Finset.sum_congr rfl fun k _ => by rw [h0 k, h1 k])

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- Every row lies in the block of the point its row number divided by 5000 names. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e00, e01, e10, e11, e20, e21, e30, e31⟩ := idx0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e30]; show (i 0).val / 5000 * 5000 ≤ (i 0).val ∧ (i 0).val < (i 0).val / 5000 * 5000 + 5000; omega
  | ⟨1, _⟩ =>
    show win0_3.index t (1 : Fin 2) * 128 ≤ (i 1).val ∧ (i 1).val < win0_3.index t (1 : Fin 2) * 128 + 128
    rw [e31]; omega

/-- THE ARRAY after region 0: x·W + b of the arrays as the region finds them. -/
theorem final0 (c : Dev nD) : (dat0 V c).arrAt 3 cfg0.N = GLin (V c main_arg0) (V c main_arg4) (V c main_v0) :=
  (dat0 V c).arrAt_eq_of_cover 3 _ (fun t _ => flushed0_eq V c t) (cover0)

/-! ## Region 1 -/

/-- The printed index maps over the grid: the row-block windows sit at block (t, 0), the weights and the bias at (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of x·W + b of the arrays as the region finds them. -/
theorem flushed1_eq (c : Dev nD) (t : Fin cfg1.N) :
    (dat1 V c).flushed 3 t = ((cfg1.win 3).blk t).view.read (Elt Ideal) (GLin (V c main_arg1) (V c main_arg6) (V c main_v2)) := by
  show (cfg1.win 3).cut (grid1.coords t) ((dat1 V c).after 3 t) = _
  rw [after1_3, out1_eq]
  obtain ⟨e00, e01, e10, e11, e20, e21, e30, e31⟩ := idx1 t
  refine funext fun (j : S5000x128.Idx) => ?_
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = GLin (V c main_arg1) (V c main_arg6) (V c main_v2) (((cfg1.win 3).blk t).view.emb (ix2 p q))
  rw [k1_pay1_apply]
  unfold lin GLin lin
  have h0 : ∀ k : Fin 128, iblk1 V c 0 t (ix2 p k) = V c main_arg1 (ix2 ((((cfg1.win 3).blk t).view.emb (ix2 p q)) 0) k) := fun k => by
    show V c main_arg1 (((cfg1.win 0).blk t).view.emb (ix2 p k)) = _
    refine congrArg _ (funext fun a => Fin.ext ?_)
    match a with
    | ⟨0, _⟩ => show win1_0.index t (0 : Fin 2) * 5000 + 1 * p.val = win1_3.index t (0 : Fin 2) * 5000 + 1 * p.val; rw [e00, e30]
    | ⟨1, _⟩ => show win1_0.index t (1 : Fin 2) * 128 + 1 * k.val = k.val; rw [e01]; omega
  have h1 : ∀ k : Fin 128, iblk1 V c 1 t (ix2 k q) = V c main_arg6 (ix2 k ((((cfg1.win 3).blk t).view.emb (ix2 p q)) 1)) := fun k => by
    show V c main_arg6 (((cfg1.win 1).blk t).view.emb (ix2 k q)) = _
    refine congrArg _ (funext fun a => Fin.ext ?_)
    match a with
    | ⟨0, _⟩ => show win1_1.index t (0 : Fin 2) * 128 + 1 * k.val = k.val; rw [e10]; omega
    | ⟨1, _⟩ => show win1_1.index t (1 : Fin 2) * 128 + 1 * q.val = win1_3.index t (1 : Fin 2) * 128 + 1 * q.val; rw [e11, e31]
  have h2 : iblk1 V c 2 t (ix2 (0 : Fin 1) q) = V c main_v2 (ix2 (0 : Fin 1) ((((cfg1.win 3).blk t).view.emb (ix2 p q)) 1)) := by
    show V c main_v2 (((cfg1.win 2).blk t).view.emb (ix2 (0 : Fin 1) q)) = _
    refine congrArg _ (funext fun a => Fin.ext ?_)
    match a with
    | ⟨0, _⟩ => show win1_2.index t (0 : Fin 2) * 1 + 1 * 0 = 0; rw [e20]
    | ⟨1, _⟩ => show win1_2.index t (1 : Fin 2) * 128 + 1 * q.val = win1_3.index t (1 : Fin 2) * 128 + 1 * q.val; rw [e21, e31]
  rw [h2]
  exact congrArg (· + _) (Finset.sum_congr rfl fun k _ => by rw [h0 k, h1 k])

/-- An index of the array is in point `t`'s block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v3).slice (win1_3.rect t)).set ↔ _
  rw [View.set_slice_whole, Rect.mem_set_unit]
  exact Iff.rfl

/-- Every row lies in the block of the point its row number divided by 5000 names. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e00, e01, e10, e11, e20, e21, e30, e31⟩ := idx1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    rw [e30]; show (i 0).val / 5000 * 5000 ≤ (i 0).val ∧ (i 0).val < (i 0).val / 5000 * 5000 + 5000; omega
  | ⟨1, _⟩ =>
    show win1_3.index t (1 : Fin 2) * 128 ≤ (i 1).val ∧ (i 1).val < win1_3.index t (1 : Fin 2) * 128 + 128
    rw [e31]; omega

/-- THE ARRAY after region 1: x·W + b of the arrays as the region finds them. -/
theorem final1 (c : Dev nD) : (dat1 V c).arrAt 3 cfg1.N = GLin (V c main_arg1) (V c main_arg6) (V c main_v2) :=
  (dat1 V c).arrAt_eq_of_cover 3 _ (fun t _ => flushed1_eq V c t) (cover1)

end Cert.KernelIdeal.Hand

end
-- ==== Proof.ValMlp.lean ====
/-
  The edge-network region's output array as a whole-array function, on the extended reals.

  Point t writes back rows 4096·t … of the network's value, cut at the array's end (the last block has 576 rows inside
  the array). Row r of the output is the network applied to row r of the two gathered arrays; the blocks' parts inside
  the array tile it, so after the region the array is the network's value, entry by entry.
-/
import proofs.«132436_j89249420411231_1_alg».proof.Proof.IdealRegs2
import proofs.«132436_j89249420411231_1_alg».proof.Proof.IdealOuts
import proofs.«132436_j89249420411231_1_alg».proof.Proof.IdealPay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

/-- The edge network over whole arrays: entry (r, q) from row r of the two gathered arrays. -/
def GMlp (gu gi : S1000000x128.Idx → EReal) (W1 : S128x128.Idx → EReal) (b1 : S1x128.Idx → EReal)
    (W2 : S128x128.Idx → EReal) (b2 : S1x128.Idx → EReal) : S1000000x128.Idx → EReal :=
  fun i => mlpRow (fun j => gu (ix2 (i 0) j)) (fun j => gi (ix2 (i 0) j)) W1 b1 W2 b2 (i 1)

variable (V : (c : Dev nD) → (b : Ref sig .tc) → Buf (Elt Ideal) ((c : Thread nD τ).loc b))

/-- The printed index maps and cuts over the grid: the row-block windows sit at block (t, 0) and keep
    min 4096 (1000000 − 4096·t) rows; the weights and the bias rows sit at (0, 0). -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_6.xsize (grid2.coords t) (0 : Fin 2) = min 4096 (1000000 - t.val * 4096) :=
  (by decide +kernel : ∀ t : Fin grid2.N, _)

/-- The weights' and bias rows' blocks are the whole arrays. -/
theorem iblk2_2 (c : Dev nD) (t : Fin cfg2.N) : iblk2 V c 2 t = V c main_arg8 := by
  obtain ⟨-, -, -, -, e20, e21, -⟩ := idx2 t
  refine funext fun (y : S128x128.Idx) => ?_
  show V c main_arg8 (((cfg2.win 2).blk t).view.emb y) = _
  refine congrArg _ (funext fun a => Fin.ext ?_)
  match a with
  | ⟨0, _⟩ => show win2_2.index t (0 : Fin 2) * 128 + 1 * (y 0).val = (y 0).val; rw [e20]; omega
  | ⟨1, _⟩ => show win2_2.index t (1 : Fin 2) * 128 + 1 * (y 1).val = (y 1).val; rw [e21]; omega
theorem iblk2_3 (c : Dev nD) (t : Fin cfg2.N) : iblk2 V c 3 t = V c main_v18 := by
  obtain ⟨-, -, -, -, -, -, e30, e31, -⟩ := idx2 t
  refine funext fun (y : S1x128.Idx) => ?_
  show V c main_v18 (((cfg2.win 3).blk t).view.emb y) = _
  refine congrArg _ (funext fun a => Fin.ext ?_)
  match a with
  | ⟨0, _⟩ => show win2_3.index t (0 : Fin 2) * 1 + 1 * (y 0).val = (y 0).val; rw [e30]; omega
  | ⟨1, _⟩ => show win2_3.index t (1 : Fin 2) * 128 + 1 * (y 1).val = (y 1).val; rw [e31]; omega
theorem iblk2_4 (c : Dev nD) (t : Fin cfg2.N) : iblk2 V c 4 t = V c main_v19 := by
  obtain ⟨-, -, -, -, -, -, -, -, e40, e41, -⟩ := idx2 t
  refine funext fun (y : S128x128.Idx) => ?_
  show V c main_v19 (((cfg2.win 4).blk t).view.emb y) = _
  refine congrArg _ (funext fun a => Fin.ext ?_)
  match a with
  | ⟨0, _⟩ => show win2_4.index t (0 : Fin 2) * 128 + 1 * (y 0).val = (y 0).val; rw [e40]; omega
  | ⟨1, _⟩ => show win2_4.index t (1 : Fin 2) * 128 + 1 * (y 1).val = (y 1).val; rw [e41]; omega
theorem iblk2_5 (c : Dev nD) (t : Fin cfg2.N) : iblk2 V c 5 t = V c main_v21 := by
  obtain ⟨-, -, -, -, -, -, -, -, -, -, e50, e51, -⟩ := idx2 t
  refine funext fun (y : S1x128.Idx) => ?_
  show V c main_v21 (((cfg2.win 5).blk t).view.emb y) = _
  refine congrArg _ (funext fun a => Fin.ext ?_)
  match a with
  | ⟨0, _⟩ => show win2_5.index t (0 : Fin 2) * 1 + 1 * (y 0).val = (y 0).val; rw [e50]; omega
  | ⟨1, _⟩ => show win2_5.index t (1 : Fin 2) * 128 + 1 * (y 1).val = (y 1).val; rw [e51]; omega

/-- A gathered block filled out, read at a row inside the array: the gathered array's row 4096·t + p. -/
theorem fblk2_0_row (c : Dev nD) (t : Fin cfg2.N) (p : Fin 4096) (q k : Fin 128) (r : Fin 1000000)
    (hm : win2_0.moved (grid2.coords t) (ix2 p q) = true) (hr : r.val = t.val * 4096 + p.val) :
    fblk2_0 V c t (ix2 p k) = V c main_v10 (ix2 r k) := by
  obtain ⟨e00, e01, -⟩ := idx2 t
  have hk := moved_row (grid2.coords t) p q k hm
  unfold fblk2_0 Window.fill
  rw [dif_pos hk]
  show V c main_v10 (((cfg2.win 0).blk t).view.emb _) = _
  refine congrArg _ (funext fun a => Fin.ext ?_)
  match a with
  | ⟨0, _⟩ => show win2_0.index t (0 : Fin 2) * 4096 + 1 * p.val = r.val; rw [e00, hr]; omega
  | ⟨1, _⟩ => show win2_0.index t (1 : Fin 2) * 128 + 1 * k.val = k.val; rw [e01]; omega

theorem fblk2_1_row (c : Dev nD) (t : Fin cfg2.N) (p : Fin 4096) (q k : Fin 128) (r : Fin 1000000)
    (hm : win2_0.moved (grid2.coords t) (ix2 p q) = true) (hr : r.val = t.val * 4096 + p.val) :
    fblk2_1 V c t (ix2 p k) = V c main_v17 (ix2 r k) := by
  obtain ⟨-, -, e10, e11, -⟩ := idx2 t
  have hk : win2_1.moved (grid2.coords t) (ix2 p k) = true := moved_row (grid2.coords t) p q k hm
  unfold fblk2_1 Window.fill
  rw [dif_pos hk]
  show V c main_v17 (((cfg2.win 1).blk t).view.emb _) = _
  refine congrArg _ (funext fun a => Fin.ext ?_)
  match a with
  | ⟨0, _⟩ => show win2_1.index t (0 : Fin 2) * 4096 + 1 * p.val = r.val; rw [e10, hr]; omega
  | ⟨1, _⟩ => show win2_1.index t (1 : Fin 2) * 128 + 1 * k.val = k.val; rw [e11]; omega

/-- WHAT POINT `t` WRITES BACK is block `t`, cut at the array's end, of the network's value of the arrays as the region finds them. -/
theorem flushed2_eq (c : Dev nD) (t : Fin cfg2.N) :
    (dat2 V c).flushed 6 t = ((cfg2.win 6).blk t).view.read (Elt Ideal)
      (GMlp (V c main_v10) (V c main_v17) (V c main_arg8) (V c main_v18) (V c main_v19) (V c main_v21)) := by
  show (cfg2.win 6).cut (grid2.coords t) ((dat2 V c).after 6 t) = _
  rw [after2_6, out2_eq, iblk2_2, iblk2_3, iblk2_4, iblk2_5]
  obtain ⟨-, -, -, -, -, -, -, -, -, -, -, -, e60, e61, -⟩ := idx2 t
  funext j
  have hm : win2_0.moved (grid2.coords t) (win2_6.xinj (grid2.coords t) j) = true := win2_6.moved_xinj (grid2.coords t) j
  have hJ : win2_6.xinj (grid2.coords t) j = ix2 (⟨(j 0).val, (win2_6.xinj (grid2.coords t) j 0).isLt⟩ : Fin 4096) (⟨(j 1).val, (win2_6.xinj (grid2.coords t) j 1).isLt⟩ : Fin 128) := by
    funext a; apply Fin.ext
    match a with
    | ⟨0, _⟩ => rfl
    | ⟨1, _⟩ => rfl
  show k2_pay1 (fblk2_0 V c t) (fblk2_1 V c t) (V c main_arg8) (V c main_v18) (V c main_v19) (V c main_v21) (win2_6.xinj (grid2.coords t) j)
    = GMlp (V c main_v10) (V c main_v17) (V c main_arg8) (V c main_v18) (V c main_v19) (V c main_v21) (((cfg2.win 6).blk t).view.emb j)
  rw [hJ] at hm ⊢
  rw [k2_pay1_apply]
  unfold GMlp
  have hr0 : ((((cfg2.win 6).blk t).view.emb j) 0).val = t.val * 4096 + (j 0).val := by
    show win2_6.index t (0 : Fin 2) * 4096 + 1 * (j 0).val = _; rw [e60]; omega
  have hq : (((cfg2.win 6).blk t).view.emb j) 1 = (⟨(j 1).val, (win2_6.xinj (grid2.coords t) j 1).isLt⟩ : Fin 128) := by
    apply Fin.ext
    show win2_6.index t (1 : Fin 2) * 128 + 1 * (j 1).val = (j 1).val; rw [e61]; omega
  have e0 : (fun k : Fin 128 => fblk2_0 V c t (ix2 (⟨(j 0).val, (win2_6.xinj (grid2.coords t) j 0).isLt⟩ : Fin 4096) k))
      = fun k => V c main_v10 (ix2 ((((cfg2.win 6).blk t).view.emb j) 0) k) :=
    funext fun k => fblk2_0_row V c t _ _ k _ hm hr0
  have e1 : (fun k : Fin 128 => fblk2_1 V c t (ix2 (⟨(j 0).val, (win2_6.xinj (grid2.coords t) j 0).isLt⟩ : Fin 4096) k))
      = fun k => V c main_v17 (ix2 ((((cfg2.win 6).blk t).view.emb j) 0) k) :=
    funext fun k => fblk2_1_row V c t _ _ k _ hm hr0
  rw [e0, e1, hq]

/-- An index of the array is in point `t`'s block iff each coordinate is in the block's range cut at the array's end. -/
theorem mem_blk2 (t : Fin cfg2.N) (i : S1000000x128.Idx) :
    i ∈ ((cfg2.win 6).blk t).view.set ↔ ∀ a : Fin 2, win2_6.index t a * S4096x128.size a ≤ (i a).val
      ∧ (i a).val < win2_6.index t a * S4096x128.size a + win2_6.xsize (grid2.coords t) a := by
  show i ∈ ((View.whole main_v22).slice (win2_6.rect t)).set ↔ _
  rw [View.set_slice_whole, Rect.mem_set_unit]
  exact Iff.rfl

/-- Every row lies in the block of the point its row number divided by 4096 names. -/
theorem cover2 (i : S1000000x128.Idx) : ∃ t : Fin cfg2.N, (cfg2.win 6).flush t = true ∧ i ∈ ((cfg2.win 6).blk t).view.set := by
  have hi0 : (i 0).val < 1000000 := (i 0).isLt
  have hi1 : (i 1).val < 128 := (i 1).isLt
  have hN : cfg2.N = 245 := N_2
  let t : Fin cfg2.N := ⟨(i 0).val / 4096, by rw [hN]; omega⟩
  obtain ⟨-, -, -, -, -, -, -, -, -, -, -, -, e60, e61, ex⟩ := idx2 t
  refine ⟨t, flush2_6 t, ?_⟩
  rw [mem_blk2]
  intro a
  match a with
  | ⟨0, _⟩ =>
    show win2_6.index t (0 : Fin 2) * 4096 ≤ (i 0).val ∧ (i 0).val < win2_6.index t (0 : Fin 2) * 4096 + win2_6.xsize (grid2.coords t) (0 : Fin 2)
    rw [e60, ex]; show (i 0).val / 4096 * 4096 ≤ (i 0).val ∧ (i 0).val < (i 0).val / 4096 * 4096 + min 4096 (1000000 - (i 0).val / 4096 * 4096); omega
  | ⟨1, _⟩ =>
    show win2_6.index t (1 : Fin 2) * 128 ≤ (i 1).val ∧ (i 1).val < win2_6.index t (1 : Fin 2) * 128 + win2_6.xsize (grid2.coords t) (1 : Fin 2)
    rw [e61, xsize2_6_col]; omega

/-- THE ARRAY after region 2: the network's value of the arrays as the region finds them. -/
theorem final2 (c : Dev nD) : (dat2 V c).arrAt 6 cfg2.N
    = GMlp (V c main_v10) (V c main_v17) (V c main_arg8) (V c main_v18) (V c main_v19) (V c main_v21) :=
  (dat2 V c).arrAt_eq_of_cover 6 _ (fun t _ => flushed2_eq V c t) (cover2)

end Cert.KernelIdeal.Hand

end
-- ==== Proof.ValHost.lean ====
/-
  The host operations between the kernel regions, read off an arbitrary valuation of the buffers: each value the
  regions or the result depend on, as the operations' term of the buffers it is computed from.
-/
import proofs.«132436_j89249420411231_1_alg».proof.Proof.Gen.KernelIdeal.Regions
import Idealize.ShloMosaic.Lib.StableHlo.Run
import Idealize.ShloMosaic.PureOps.Ideal.Laws
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

variable (W : Valuation τ sig (Elt Ideal))

/-- The row numbers into the first table: a negative number moved up by the table's height. -/
def rowsU (a2 : S1000000.Idx → BitVec 32) : S1000000x1.Idx → BitVec 32 :=
  broadcastInDim S1000000x1 ![0] bcast_S1000000_S1000000x1_0
    (select (cmpi .slt a2 (broadcastInDim S1000000 ![] bcast_S_S1000000 (constantI S_ 32 0#32)))
      (addi a2 (broadcastInDim S1000000 ![] bcast_S_S1000000 (constantI S_ 32 100000#32))) a2)

/-- The row numbers into the second table. -/
def rowsI (a3 : S1000000.Idx → BitVec 32) : S1000000x1.Idx → BitVec 32 :=
  broadcastInDim S1000000x1 ![0] bcast_S1000000_S1000000x1_0
    (select (cmpi .slt a3 (broadcastInDim S1000000 ![] bcast_S_S1000000 (constantI S_ 32 0#32)))
      (addi a3 (broadcastInDim S1000000 ![] bcast_S_S1000000 (constantI S_ 32 50000#32))) a3)

theorem ho0_v0 : (StableHlo.after (hostOps0 (F := Ideal)) W main_v0 : S1x128.Idx → EReal)
    = shapeCast S1x128 (W main_arg5 : S128.Idx → EReal) shapeCasts_S128_S1x128 := by
  after_results; rfl

theorem ho1_v2 : (StableHlo.after (hostOps1 (F := Ideal)) W main_v2 : S1x128.Idx → EReal)
    = shapeCast S1x128 (W main_arg7 : S128.Idx → EReal) shapeCasts_S128_S1x128 := by
  after_results; rfl

theorem ho2_v10 : (StableHlo.after (hostOps2 (F := Ideal)) W main_v10 : S1000000x128.Idx → EReal)
    = Host.gather gather_S100000x128_S1000000x1_S1000000x128_1_0_n_n_0_1_1128 (W main_v1 : S100000x128.Idx → EReal) (rowsU (W main_arg2)) := by
  after_results; rfl

theorem ho2_v17 : (StableHlo.after (hostOps2 (F := Ideal)) W main_v17 : S1000000x128.Idx → EReal)
    = Host.gather gather_S50000x128_S1000000x1_S1000000x128_1_0_n_n_0_1_1128 (W main_v3 : S50000x128.Idx → EReal) (rowsI (W main_arg3)) := by
  after_results; rfl

theorem ho2_v18 : (StableHlo.after (hostOps2 (F := Ideal)) W main_v18 : S1x128.Idx → EReal)
    = shapeCast S1x128 (W main_arg9 : S128.Idx → EReal) shapeCasts_S128_S1x128 := by
  after_results; rfl

theorem ho21_v19 : ∃ v : S_.Idx → EReal, (StableHlo.after (hostOps2_1 (F := Ideal)) W main_v19 : S128x128.Idx → EReal)
    = pad S128x128 ![0, 0] ![0, 127] ![0, 0] (W main_arg10 : S128x1.Idx → EReal) v pads_S128x1_S128x128_000_01270 h_S_ := by
  refine ⟨(sitofp .f32 (W main_c_3 : IVec S_ 32) : FVec Ideal S_ .f32), ?_⟩
  after_results; rfl

theorem ho23_v20 : ∃ v : S_.Idx → EReal, (StableHlo.after (hostOps2_3 (F := Ideal)) W main_v20 : S128.Idx → EReal)
    = pad S128 ![0] ![127] ![0] (W main_arg11 : S1.Idx → EReal) v pads_S1_S128_01270 h_S_ := by
  refine ⟨(sitofp .f32 (W main_c_4 : IVec S_ 32) : FVec Ideal S_ .f32), ?_⟩
  after_results; rfl

theorem ho24_v21 : (StableHlo.after (hostOps2_4 (F := Ideal)) W main_v21 : S1x128.Idx → EReal)
    = shapeCast S1x128 (W main_v20 : S128.Idx → EReal) shapeCasts_S128_S1x128 := by
  after_results; rfl

theorem ho3_v23 : (StableHlo.after (hostOps3 (F := Ideal)) W main_v23 : S1000000x1.Idx → EReal)
    = extractStridedSlice S1000000x1 ![0, 0] (W main_v22 : S1000000x128.Idx → EReal) slices_S1000000x128_S1000000x1_0_0 := by
  after_results

end Cert.KernelIdeal.Hand

end
-- ==== Proof.RefRun.lean ====
/-
  The reference program's run and its stages read one operation at a time are generated; this module only
  brings them into the certificate.
-/
import proofs.«132436_j89249420411231_1_alg».proof.Proof.Gen.ReferenceIdeal.Read
-- ==== Proof.RefSpec.lean ====
/-
  The reference program's result as ONE function of its twelve argument arrays, entry by entry on the extended reals,
  and the reference's run stated with that function.

  Entry (r, 0) of the result is the leaky rectifier of a 128-term dot product with the last weights plus the last bias.
  Each of the 128 terms is the rectifier of a 128×128 layer with bias, applied to the rectifier of the sum of two
  gathered rows. The two tables the rows are gathered from are the linear layers x·W + b of the first two arguments,
  and the row numbers are the reference's own chains on the two integer arguments (a negative number is moved up by the
  table's height), kept closed.
-/
import proofs.«132436_j89249420411231_1_alg».proof.Proof.RefRun
import proofs.«132436_j89249420411231_1_alg».proof.Proof.IdealPay

noncomputable section

namespace Cert.ReferenceIdeal.Hand

open Cert.ReferenceIdeal Cert.ReferenceIdeal.Gen Idealize.ShloMosaic Idealize.ShloMosaic.ValueIdx Idealize.ShloMosaic.TcCoe Idealize.SL.Sem
open Cert.KernelIdeal.Hand (lrelu)

/-! ## The specification -/

/-- The linear layer x·W + b with a bias vector b of length 128, entry by entry. -/
def linE {M : ℕ} (x : (⟨2, ![M, 128]⟩ : Shape).Idx → EReal) (w : (⟨2, ![128, 128]⟩ : Shape).Idx → EReal)
    (b : (⟨1, ![128]⟩ : Shape).Idx → EReal) : (⟨2, ![M, 128]⟩ : Shape).Idx → EReal :=
  fun i => (∑ k : Fin 128, x (ix2 (i 0) k) * w (ix2 k (i 1))) + b (ix1 (i 1))

/-- The row numbers into the first table: the reference's chain on its third argument, a negative number moved up by 100000. -/
def idxU (a2 : (⟨1, ![1000000]⟩ : Shape).Idx → BitVec 32) : (⟨2, ![1000000, 1]⟩ : Shape).Idx → BitVec 32 :=
  broadcastInDim S1000000x1 ![0] bcast_S1000000_S1000000x1_0
    (select (cmpi .slt a2 (broadcastInDim S1000000 ![] bcast_S_S1000000 (constantI S_ 32 0#32)))
      (addi a2 (broadcastInDim S1000000 ![] bcast_S_S1000000 (constantI S_ 32 100000#32))) a2)

/-- The row numbers into the second table: the reference's chain on its fourth argument, a negative number moved up by 50000. -/
def idxI (a3 : (⟨1, ![1000000]⟩ : Shape).Idx → BitVec 32) : (⟨2, ![1000000, 1]⟩ : Shape).Idx → BitVec 32 :=
  broadcastInDim S1000000x1 ![0] bcast_S1000000_S1000000x1_0
    (select (cmpi .slt a3 (broadcastInDim S1000000 ![] bcast_S_S1000000 (constantI S_ 32 0#32)))
      (addi a3 (broadcastInDim S1000000 ![] bcast_S_S1000000 (constantI S_ 32 50000#32))) a3)

/-- The rows of a 100000×128 table gathered at the first chain's row numbers. -/
def gatherU (T : (⟨2, ![100000, 128]⟩ : Shape).Idx → EReal) (a2 : (⟨1, ![1000000]⟩ : Shape).Idx → BitVec 32) :
    (⟨2, ![1000000, 128]⟩ : Shape).Idx → EReal :=
  Host.gather gather_S100000x128_S1000000x1_S1000000x128_1_0_n_n_0_1_1128 T (idxU a2)

/-- The rows of a 50000×128 table gathered at the second chain's row numbers. -/
def gatherI (T : (⟨2, ![50000, 128]⟩ : Shape).Idx → EReal) (a3 : (⟨1, ![1000000]⟩ : Shape).Idx → BitVec 32) :
    (⟨2, ![1000000, 128]⟩ : Shape).Idx → EReal :=
  Host.gather gather_S50000x128_S1000000x1_S1000000x128_1_0_n_n_0_1_1128 T (idxI a3)

/-- The result, entry by entry, with no layout operation in it. -/
def specOut (a0 : (⟨2, ![100000, 128]⟩ : Shape).Idx → EReal) (a1 : (⟨2, ![50000, 128]⟩ : Shape).Idx → EReal)
    (a2 a3 : (⟨1, ![1000000]⟩ : Shape).Idx → BitVec 32)
    (a4 : (⟨2, ![128, 128]⟩ : Shape).Idx → EReal) (a5 : (⟨1, ![128]⟩ : Shape).Idx → EReal)
    (a6 : (⟨2, ![128, 128]⟩ : Shape).Idx → EReal) (a7 : (⟨1, ![128]⟩ : Shape).Idx → EReal)
    (a8 : (⟨2, ![128, 128]⟩ : Shape).Idx → EReal) (a9 : (⟨1, ![128]⟩ : Shape).Idx → EReal)
    (a10 : (⟨2, ![128, 1]⟩ : Shape).Idx → EReal) (a11 : (⟨1, ![1]⟩ : Shape).Idx → EReal) :
    (⟨2, ![1000000, 1]⟩ : Shape).Idx → EReal :=
  fun i => lrelu ((∑ k : Fin 128,
      lrelu ((∑ j : Fin 128,
          lrelu (gatherU (linE a0 a4 a5) a2 (ix2 (i 0) j) + gatherI (linE a1 a6 a7) a3 (ix2 (i 0) j)) * a8 (ix2 j k))
        + a9 (ix1 k)) * a10 (ix2 k (0 : Fin 1)))
    + a11 (ix1 (0 : Fin 1)))

/-! ## The reference's operations, read at an entry -/

/-- The rectifier as the reference spells it — compare with a spread zero, multiply by a spread slope, select — at an entry. -/
theorem hostLrelu_apply {s : Shape} (z : FVec Ideal s .f32) (h : (⟨0, ![]⟩ : Shape).BroadcastsInDim s (![] : Fin 0 → Fin s.rank))
    (i : s.Idx) :
    select (cmpf .oge z (broadcastInDim s ![] h (constant (F := Ideal) ⟨0, ![]⟩ .f32 0x00000000#32))) z
      (mulf (broadcastInDim s ![] h (constant (F := Ideal) ⟨0, ![]⟩ .f32 0x3C23D70A#32)) z) i = lrelu (z i) := rfl

/-- A bias vector of length N made a 1×N row and spread over M rows reads at (p, q) the bias at q. -/
theorem hostBias_apply {α : Type} {M N : ℕ} (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (p : Fin M) (q : Fin N) :
    broadcastInDim ⟨2, ![M, N]⟩ ![0, 1] h2 (broadcastInDim ⟨2, ![1, N]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if N = 1 then 0 else q.val
      split <;> omega
  · match a with
    | ⟨0, _⟩ =>
      show q.val = if N = 1 then 0 else q.val
      split <;> omega

/-- A layer as the reference spells it — the plain product of an M×128 block by 128×N weights, plus the spread bias — at (p, q). -/
theorem hostLayer_apply {M N : ℕ} (D : DotDims ⟨2, ![M, 128]⟩ ⟨2, ![128, N]⟩ ⟨2, ![M, N]⟩)
    (hlb : D.lhsBatch = []) (hrb : D.rhsBatch = []) (hln : D.lhsNonContracting = [0]) (hrn : D.rhsNonContracting = [1])
    (hlc : D.lhsContracting = [1]) (hrc : D.rhsContracting = [0])
    (x : FVec Ideal ⟨2, ![M, 128]⟩ .f32) (w : FVec Ideal ⟨2, ![128, N]⟩ .f32) (b : (⟨1, ![N]⟩ : Shape).Idx → EReal)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (p : Fin M) (q : Fin N) :
    addf (Host.dotGeneral D none x w) (broadcastInDim ⟨2, ![M, N]⟩ ![0, 1] h2 (broadcastInDim ⟨2, ![1, N]⟩ ![1] h1 b)) (ix2 p q)
      = (∑ k : Fin 128, x (ix2 p k) * w (ix2 k q)) + b (ix1 q) :=
  congrArg₂ (· + ·) (Cert.LibPlainDot.dotGeneral_apply D hlb hrb hln hrn hlc hrc x w p q) (hostBias_apply b h1 h2 p q)

/-! ## The reference's stages -/

section Stages
variable (x0 : (⟨2, ![100000, 128]⟩ : Shape).Idx → EReal) (x1 : (⟨2, ![50000, 128]⟩ : Shape).Idx → EReal)
    (x2 x3 : (⟨1, ![1000000]⟩ : Shape).Idx → BitVec 32)
    (x4 : (⟨2, ![128, 128]⟩ : Shape).Idx → EReal) (x5 : (⟨1, ![128]⟩ : Shape).Idx → EReal)
    (x6 : (⟨2, ![128, 128]⟩ : Shape).Idx → EReal) (x7 : (⟨1, ![128]⟩ : Shape).Idx → EReal)

/-- The first table is the linear layer of the first argument. -/
theorem v3_eq : Read.val_main_v3 (F := Ideal) x0 x4 x5 = linE x0 x4 x5 := by
  funext i
  obtain ⟨p, q, rfl⟩ : ∃ (p : Fin 100000) (q : Fin 128), i = ix2 p q := ⟨i 0, i 1, eq_ix2 i⟩
  unfold Read.val_main_v3 Read.val_main_v0 Read.val_main_v2 Read.val_main_v1 linE
  exact hostLayer_apply _ rfl rfl rfl rfl rfl rfl x0 x4 x5 _ _ p q

/-- The second table is the linear layer of the second argument. -/
theorem v7_eq : Read.val_main_v7 (F := Ideal) x1 x6 x7 = linE x1 x6 x7 := by
  funext i
  obtain ⟨p, q, rfl⟩ : ∃ (p : Fin 50000) (q : Fin 128), i = ix2 p q := ⟨i 0, i 1, eq_ix2 i⟩
  unfold Read.val_main_v7 Read.val_main_v4 Read.val_main_v6 Read.val_main_v5 linE
  exact hostLayer_apply _ rfl rfl rfl rfl rfl rfl x1 x6 x7 _ _ p q

/-- The first gathered array. -/
theorem v14_eq : Read.val_main_v14 (F := Ideal) x0 x2 x4 x5 = gatherU (linE x0 x4 x5) x2 := by
  unfold Read.val_main_v14
  rw [v3_eq]
  rfl

/-- The second gathered array. -/
theorem v21_eq : Read.val_main_v21 (F := Ideal) x1 x3 x6 x7 = gatherI (linE x1 x6 x7) x3 := by
  unfold Read.val_main_v21
  rw [v7_eq]
  rfl

/-- The sum of the two gathered arrays, at an entry. -/
theorem v22_apply (i : (⟨2, ![1000000, 128]⟩ : Shape).Idx) :
    Read.val_main_v22 (F := Ideal) x0 x1 x2 x3 x4 x5 x6 x7 i
      = gatherU (linE x0 x4 x5) x2 i + gatherI (linE x1 x6 x7) x3 i := by
  unfold Read.val_main_v22
  rw [v14_eq, v21_eq]
  rfl

/-- The first rectifier, at an entry. -/
theorem v27_apply (i : (⟨2, ![1000000, 128]⟩ : Shape).Idx) :
    Read.val_main_v27 (F := Ideal) x0 x1 x2 x3 x4 x5 x6 x7 i
      = lrelu (Read.val_main_v22 (F := Ideal) x0 x1 x2 x3 x4 x5 x6 x7 i) := by
  unfold Read.val_main_v27 Read.val_main_v24 Read.val_main_v26 Read.val_main_v23 Read.val_main_v25 Read.val_main_cst
    Read.val_main_cst_3
  exact hostLrelu_apply _ _ i

variable (x8 : (⟨2, ![128, 128]⟩ : Shape).Idx → EReal) (x9 : (⟨1, ![128]⟩ : Shape).Idx → EReal)

/-- The hidden layer, at (p, q). -/
theorem v31_apply (p : Fin 1000000) (q : Fin 128) :
    Read.val_main_v31 (F := Ideal) x0 x1 x2 x3 x4 x5 x6 x7 x8 x9 (ix2 p q)
      = (∑ j : Fin 128, Read.val_main_v27 (F := Ideal) x0 x1 x2 x3 x4 x5 x6 x7 (ix2 p j) * x8 (ix2 j q)) + x9 (ix1 q) := by
  unfold Read.val_main_v31 Read.val_main_v28 Read.val_main_v30 Read.val_main_v29
  exact hostLayer_apply _ rfl rfl rfl rfl rfl rfl _ x8 x9 _ _ p q

/-- The second rectifier, at an entry. -/
theorem v36_apply (i : (⟨2, ![1000000, 128]⟩ : Shape).Idx) :
    Read.val_main_v36 (F := Ideal) x0 x1 x2 x3 x4 x5 x6 x7 x8 x9 i
      = lrelu (Read.val_main_v31 (F := Ideal) x0 x1 x2 x3 x4 x5 x6 x7 x8 x9 i) := by
  unfold Read.val_main_v36 Read.val_main_v33 Read.val_main_v35 Read.val_main_v32 Read.val_main_v34 Read.val_main_cst_4
    Read.val_main_cst_5
  exact hostLrelu_apply _ _ i

variable (x10 : (⟨2, ![128, 1]⟩ : Shape).Idx → EReal) (x11 : (⟨1, ![1]⟩ : Shape).Idx → EReal)

/-- The last layer, at (p, z). -/
theorem v40_apply (p : Fin 1000000) (z : Fin 1) :
    Read.val_main_v40 (F := Ideal) x0 x1 x2 x3 x4 x5 x6 x7 x8 x9 x10 x11 (ix2 p z)
      = (∑ k : Fin 128, Read.val_main_v36 (F := Ideal) x0 x1 x2 x3 x4 x5 x6 x7 x8 x9 (ix2 p k) * x10 (ix2 k z)) + x11 (ix1 z) := by
  unfold Read.val_main_v40 Read.val_main_v37 Read.val_main_v39 Read.val_main_v38
  exact hostLayer_apply _ rfl rfl rfl rfl rfl rfl _ x10 x11 _ _ p z

/-- The last rectifier, at an entry. -/
theorem v45_apply (i : (⟨2, ![1000000, 1]⟩ : Shape).Idx) :
    Read.val_main_v45 (F := Ideal) x0 x1 x2 x3 x4 x5 x6 x7 x8 x9 x10 x11 i = lrelu (Read.val_main_v40 (F := Ideal) x0 x1 x2 x3 x4 x5 x6 x7 x8 x9 x10 x11 i) := by
  unfold Read.val_main_v45 Read.val_main_v42 Read.val_main_v44 Read.val_main_v41 Read.val_main_v43 Read.val_main_cst_6
    Read.val_main_cst_7
  exact hostLrelu_apply _ _ i

/-- The reference's last stage is the specification. -/
theorem ref_val_eq : Read.val_main_v45 (F := Ideal) x0 x1 x2 x3 x4 x5 x6 x7 x8 x9 x10 x11 = specOut x0 x1 x2 x3 x4 x5 x6 x7 x8 x9 x10 x11 := by
  funext i
  obtain ⟨r, z, rfl⟩ : ∃ (r : Fin 1000000) (z : Fin 1), i = ix2 r z := ⟨i 0, i 1, eq_ix2 i⟩
  obtain rfl : z = 0 := Subsingleton.elim _ _
  refine (v45_apply x0 x1 x2 x3 x4 x5 x6 x7 x8 x9 x10 x11 _).trans (congrArg lrelu ?_)
  refine (v40_apply x0 x1 x2 x3 x4 x5 x6 x7 x8 x9 x10 x11 r 0).trans ?_
  refine congrArg (· + x11 (ix1 (0 : Fin 1))) (Finset.sum_congr rfl fun k _ => congrArg (· * x10 (ix2 k (0 : Fin 1))) ?_)
  refine (v36_apply x0 x1 x2 x3 x4 x5 x6 x7 x8 x9 _).trans (congrArg lrelu ?_)
  refine (v31_apply x0 x1 x2 x3 x4 x5 x6 x7 x8 x9 r k).trans ?_
  refine congrArg (· + x9 (ix1 k)) (Finset.sum_congr rfl fun j _ => congrArg (· * x8 (ix2 j k)) ?_)
  refine (v27_apply x0 x1 x2 x3 x4 x5 x6 x7 _).trans (congrArg lrelu ?_)
  exact v22_apply x0 x1 x2 x3 x4 x5 x6 x7 _

end Stages

/-! ## The run -/

/-- The term the reference's run ends at is the specification of the argument arrays. -/
theorem ref_is_spec (m : (ℓ : Loc nD τ sig) → Buf (Elt Ideal) ℓ) (c : Dev nD) :
    Cert.ReferenceIdeal.Value.res_main_v45 m c = specOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (Read.val_main_v45_eq m c).trans (ref_val_eq _ _ _ _ _ _ _ _ _ _ _ _)

/-- Every weakly fair execution of the reference terminates with its result at the specification of the argument arrays
    and the arguments unchanged. -/
theorem ref_run (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev nD,
        r.2.mem ((c.tc : Thread nD τ).loc main_v45) = specOut (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)
        ∧ r.2.mem ((c.tc : Thread nD τ).loc main_arg6) = m' ((c.tc : Thread nD τ).loc main_arg6)
        ∧ r.2.mem ((c.tc : Thread nD τ).loc main_arg7) = m' ((c.tc : Thread nD τ).loc main_arg7)
        ∧ r.2.mem ((c.tc : Thread nD τ).loc main_arg8) = m' ((c.tc : Thread nD τ).loc main_arg8)
        ∧ r.2.mem ((c.tc : Thread nD τ).loc main_arg9) = m' ((c.tc : Thread nD τ).loc main_arg9)
        ∧ r.2.mem ((c.tc : Thread nD τ).loc main_arg10) = m' ((c.tc : Thread nD τ).loc main_arg10)
        ∧ r.2.mem ((c.tc : Thread nD τ).loc main_arg11) = m' ((c.tc : Thread nD τ).loc main_arg11)) :=
  (θ_run Cert.ReferenceIdeal.defs _ _).mono (fun _ h c => ⟨(h c).1.trans (ref_is_spec m' c), (h c).2⟩)
    (Cert.ReferenceIdeal.Value.run (F := Ideal) m' ρ')

end Cert.ReferenceIdeal.Hand

end
-- ==== Proof.ValMain.lean ====
/-
  The idealized kernel program's result array as the specification's function of the argument arrays.

  The result is column 0 of the edge network's output; the network reads the two gathered arrays, the gathered arrays
  read the two linear layers' outputs at row numbers computed from the integer arguments, and the padded last layer
  read at column 0 is the unpadded one. Entry by entry this is the function the reference's run is stated with.
-/
import proofs.«132436_j89249420411231_1_alg».proof.Proof.IdealRun
import proofs.«132436_j89249420411231_1_alg».proof.Proof.ValLin
import proofs.«132436_j89249420411231_1_alg».proof.Proof.ValMlp
import proofs.«132436_j89249420411231_1_alg».proof.Proof.ValHost
import proofs.«132436_j89249420411231_1_alg».proof.Proof.RefSpec
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

open Cert.ReferenceIdeal.Hand (specOut gatherU gatherI linE idxU idxI)

variable (m : (ℓ : Loc nD τ sig) → Buf (Elt Ideal) ℓ) (outs : Outs (F := Ideal))

/-! ## The buffers the regions and the result read, through the valuations -/

/-- The first table: the first linear layer's output. -/
theorem tabU (hO : OutsOk m outs) (c : Dev nD) : (V4 m outs c main_v1 : S100000x128.Idx → EReal)
    = GLin (m ((c.tc : Thread nD τ).loc main_arg0)) (m ((c.tc : Thread nD τ).loc main_arg4)) (shapeCast S1x128 ((m ((c.tc : Thread nD τ).loc main_arg5)) : S128.Idx → EReal) shapeCasts_S128_S1x128) := by
  have h1 : V4 m outs c main_v1 = outs 2 main_v1 c :=
    (V4_of m outs c main_v1 (by decide)).trans ((V3_of m outs c main_v1 (by decide)).trans (by simp only [V2, Function.update_self]))
  rw [h1, hO.h0 c, final0 (VV1 m) c]
  show GLin (V1 m c main_arg0) (V1 m c main_arg4) (V1 m c main_v0) = _
  have e0 : (V1 m c main_v0 : S1x128.Idx → EReal) = shapeCast S1x128 (V0 m c main_arg5 : S128.Idx → EReal) shapeCasts_S128_S1x128 := ho0_v0 (V0 m c)
  rw [V1_of m c main_arg0 (by decide), V1_of m c main_arg4 (by decide), e0]

/-- The second table: the second linear layer's output. -/
theorem tabI (hO : OutsOk m outs) (c : Dev nD) : (V4 m outs c main_v3 : S50000x128.Idx → EReal)
    = GLin (m ((c.tc : Thread nD τ).loc main_arg1)) (m ((c.tc : Thread nD τ).loc main_arg6)) (shapeCast S1x128 ((m ((c.tc : Thread nD τ).loc main_arg7)) : S128.Idx → EReal) shapeCasts_S128_S1x128) := by
  have h1 : V4 m outs c main_v3 = outs 4 main_v3 c := by simp only [V4, Function.update_self]
  rw [h1, hO.h1 c, final1 (VV3 m outs) c]
  show GLin (V3 m outs c main_arg1) (V3 m outs c main_arg6) (V3 m outs c main_v2) = _
  have e2 : (V3 m outs c main_v2 : S1x128.Idx → EReal) = shapeCast S1x128 (V2 m outs c main_arg7 : S128.Idx → EReal) shapeCasts_S128_S1x128 := ho1_v2 (V2 m outs c)
  rw [(V3_of m outs c main_arg1 (by decide)).trans ((V2_of m outs c main_arg1 (by decide)).trans (V1_of m c main_arg1 (by decide))),
    (V3_of m outs c main_arg6 (by decide)).trans ((V2_of m outs c main_arg6 (by decide)).trans (V1_of m c main_arg6 (by decide))),
    e2,
    (V2_of m outs c main_arg7 (by decide)).trans (V1_of m c main_arg7 (by decide))]

/-- An argument array reaches the fourth valuation as launched. -/
theorem V4_arg (c : Dev nD) (r : Ref sig .tc) (h4 : r ∉ ([main_v3] : List (Ref sig .tc))) (h3 : r ∉ hostOps1_W)
    (h2 : r ∉ ([main_v1] : List (Ref sig .tc))) (h1 : r ∉ hostOps0_W) : V4 m outs c r = V0 m c r :=
  (V4_of m outs c r h4).trans ((V3_of m outs c r h3).trans ((V2_of m outs c r h2).trans (V1_of m c r h1)))

/-- The two gathered arrays the third region is entered with. -/
theorem gathU (hO : OutsOk m outs) (c : Dev nD) : (V9 m outs c main_v10 : S1000000x128.Idx → EReal)
    = Host.gather gather_S100000x128_S1000000x1_S1000000x128_1_0_n_n_0_1_1128
        (GLin (m ((c.tc : Thread nD τ).loc main_arg0)) (m ((c.tc : Thread nD τ).loc main_arg4)) (shapeCast S1x128 ((m ((c.tc : Thread nD τ).loc main_arg5)) : S128.Idx → EReal) shapeCasts_S128_S1x128))
        (rowsU (m ((c.tc : Thread nD τ).loc main_arg2))) := by
  have e10 : (V5 m outs c main_v10 : S1000000x128.Idx → EReal) = Host.gather gather_S100000x128_S1000000x1_S1000000x128_1_0_n_n_0_1_1128 (V4 m outs c main_v1 : S100000x128.Idx → EReal) (rowsU (V4 m outs c main_arg2)) := ho2_v10 (V4 m outs c)
  rw [(V9_of m outs c main_v10 (by decide)).trans ((V8_of m outs c main_v10 (by decide)).trans ((V7_of m outs c main_v10 (by decide)).trans
    (V6_of m outs c main_v10 (by decide)))), e10, tabU m outs hO c, V4_arg m outs c main_arg2 (by decide) (by decide) (by decide) (by decide)]

theorem gathI (hO : OutsOk m outs) (c : Dev nD) : (V9 m outs c main_v17 : S1000000x128.Idx → EReal)
    = Host.gather gather_S50000x128_S1000000x1_S1000000x128_1_0_n_n_0_1_1128
        (GLin (m ((c.tc : Thread nD τ).loc main_arg1)) (m ((c.tc : Thread nD τ).loc main_arg6)) (shapeCast S1x128 ((m ((c.tc : Thread nD τ).loc main_arg7)) : S128.Idx → EReal) shapeCasts_S128_S1x128))
        (rowsI (m ((c.tc : Thread nD τ).loc main_arg3))) := by
  have e17 : (V5 m outs c main_v17 : S1000000x128.Idx → EReal) = Host.gather gather_S50000x128_S1000000x1_S1000000x128_1_0_n_n_0_1_1128 (V4 m outs c main_v3 : S50000x128.Idx → EReal) (rowsI (V4 m outs c main_arg3)) := ho2_v17 (V4 m outs c)
  rw [(V9_of m outs c main_v17 (by decide)).trans ((V8_of m outs c main_v17 (by decide)).trans ((V7_of m outs c main_v17 (by decide)).trans
    (V6_of m outs c main_v17 (by decide)))), e17, tabI m outs hO c, V4_arg m outs c main_arg3 (by decide) (by decide) (by decide) (by decide)]

/-- The first edge layer's weights. -/
theorem w1_eq (c : Dev nD) : V9 m outs c main_arg8 = (m ((c.tc : Thread nD τ).loc main_arg8)) :=
  (V9_of m outs c main_arg8 (by decide)).trans ((V8_of m outs c main_arg8 (by decide)).trans ((V7_of m outs c main_arg8 (by decide)).trans
    ((V6_of m outs c main_arg8 (by decide)).trans ((V5_of m outs c main_arg8 (by decide)).trans
      (V4_arg m outs c main_arg8 (by decide) (by decide) (by decide) (by decide))))))

/-- The first edge layer's bias row, at (0, k). -/
theorem b1_apply (c : Dev nD) (k : Fin 128) : (V9 m outs c main_v18 : S1x128.Idx → EReal) (ix2 (0 : Fin 1) k) = (m ((c.tc : Thread nD τ).loc main_arg9)) (ix1 k) := by
  have e18 : (V5 m outs c main_v18 : S1x128.Idx → EReal) = shapeCast S1x128 (V4 m outs c main_arg9 : S128.Idx → EReal) shapeCasts_S128_S1x128 := ho2_v18 (V4 m outs c)
  rw [(V9_of m outs c main_v18 (by decide)).trans ((V8_of m outs c main_v18 (by decide)).trans ((V7_of m outs c main_v18 (by decide)).trans
    (V6_of m outs c main_v18 (by decide)))), e18, V4_arg m outs c main_arg9 (by decide) (by decide) (by decide) (by decide)]
  exact shapeCast_a_1a_apply _ _ (0 : Fin 1) k

/-- The padded last layer's weights at column 0: the unpadded weights. -/
theorem w2_apply (c : Dev nD) (k : Fin 128) : (V9 m outs c main_v19 : S128x128.Idx → EReal) (ix2 k (0 : Fin 128)) = (m ((c.tc : Thread nD τ).loc main_arg10)) (ix2 k (0 : Fin 1)) := by
  obtain ⟨v, hv0⟩ := ho21_v19 (V5 m outs c)
  have hv : (V6 m outs c main_v19 : S128x128.Idx → EReal) = pad S128x128 ![0, 0] ![0, 127] ![0, 0] (V5 m outs c main_arg10 : S128x1.Idx → EReal) v pads_S128x1_S128x128_000_01270 h_S_ := hv0
  rw [(V9_of m outs c main_v19 (by decide)).trans ((V8_of m outs c main_v19 (by decide)).trans (V7_of m outs c main_v19 (by decide))), hv,
    (V5_of m outs c main_arg10 (by decide)).trans (V4_arg m outs c main_arg10 (by decide) (by decide) (by decide) (by decide))]
  refine pad_apply_of_inside _ _ _ _ _ _ _ (ix2 k (0 : Fin 128)) (ix2 k (0 : Fin 1)) fun a => ?_
  match a with
  | ⟨0, _⟩ => show k.val = 0 + k.val * (0 + 1); omega
  | ⟨1, _⟩ => show 0 = 0 + 0 * (0 + 1); omega

/-- The padded last bias, reshaped to a row, at (0, 0): the unpadded bias. -/
theorem b2_apply (c : Dev nD) : (V9 m outs c main_v21 : S1x128.Idx → EReal) (ix2 (0 : Fin 1) (0 : Fin 128)) = (m ((c.tc : Thread nD τ).loc main_arg11)) (ix1 (0 : Fin 1)) := by
  obtain ⟨v, hv0⟩ := ho23_v20 (V7 m outs c)
  have hv : (V8 m outs c main_v20 : S128.Idx → EReal) = pad S128 ![0] ![127] ![0] (V7 m outs c main_arg11 : S1.Idx → EReal) v pads_S1_S128_01270 h_S_ := hv0
  have e21 : (V9 m outs c main_v21 : S1x128.Idx → EReal) = shapeCast S1x128 (V8 m outs c main_v20 : S128.Idx → EReal) shapeCasts_S128_S1x128 := ho24_v21 (V8 m outs c)
  rw [e21, hv,
    (V7_of m outs c main_arg11 (by decide)).trans ((V6_of m outs c main_arg11 (by decide)).trans ((V5_of m outs c main_arg11 (by decide)).trans
      (V4_arg m outs c main_arg11 (by decide) (by decide) (by decide) (by decide))))]
  refine (shapeCast_a_1a_apply _ _ (0 : Fin 1) (0 : Fin 128)).trans ?_
  refine pad_apply_of_inside _ _ _ _ _ _ _ (ix1 (0 : Fin 128)) (ix1 (0 : Fin 1)) fun a => ?_
  match a with
  | ⟨0, _⟩ => show 0 = 0 + 0 * (0 + 1); omega

/-! ## The linear layer in its two spellings -/

/-- A bias row that is a reshaped vector: the linear layer with the row is the linear layer with the vector. -/
theorem GLin_eq_linE {M : ℕ} (x : (⟨2, ![M, 128]⟩ : Shape).Idx → EReal) (w : S128x128.Idx → EReal) (b : S128.Idx → EReal) :
    GLin x w (shapeCast S1x128 b shapeCasts_S128_S1x128) = linE x w b := by
  funext i
  unfold GLin lin linE
  rw [shapeCast_a_1a_apply b _ (0 : Fin 1) (i 1)]

/-! ## The result -/

/-- THE RESULT ARRAY of the idealized kernel program is the specification's function of the argument arrays. -/
theorem kernel_val (hO : OutsOk m outs) (c : Dev nD) : (V11 m outs c main_v23 : S1000000x1.Idx → EReal)
    = specOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have h22 : (V10 m outs c main_v22 : S1000000x128.Idx → EReal) = outs 10 main_v22 c := by simp only [V10, Function.update_self]
  have e23 : (V11 m outs c main_v23 : S1000000x1.Idx → EReal) = extractStridedSlice S1000000x1 ![0, 0] (V10 m outs c main_v22 : S1000000x128.Idx → EReal) slices_S1000000x128_S1000000x1_0_0 := ho3_v23 (V10 m outs c)
  rw [e23, h22, hO.h2 c, final2 (VV9 m outs) c]
  funext i
  obtain ⟨e, u, rfl⟩ : ∃ (e : Fin 1000000) (u : Fin 1), i = ix2 e u := ⟨i 0, i 1, eq_ix2 i⟩
  have hu : u = 0 := Subsingleton.elim _ _
  subst hu
  rw [extractStridedSlice_apply _ _ _ (ix2 e (0 : Fin 1)) (ix2 e (0 : Fin 128)) (fun a => by
    match a with
    | ⟨0, _⟩ => show e.val = 0 + e.val; omega
    | ⟨1, _⟩ => show 0 = 0 + 0; omega)]
  show mlpRow (fun j => V9 m outs c main_v10 (ix2 e j)) (fun j => V9 m outs c main_v17 (ix2 e j)) (V9 m outs c main_arg8)
      (V9 m outs c main_v18) (V9 m outs c main_v19) (V9 m outs c main_v21) (0 : Fin 128) = _
  unfold mlpRow specOut
  rw [b2_apply m outs c, w1_eq m outs c]
  simp only [b1_apply m outs c, w2_apply m outs c, gathU m outs hO c, gathI m outs hO c, GLin_eq_linE]
  rfl

end Cert.KernelIdeal.Hand

end
-- ==== Proof.OutsExist.lean ====
/-
  The unknowns of the run exist: each region's output array is what its pipeline's write-backs leave, and that is
  determined by the launch memory — region 0's by the launch contents, region 1's by those and region 0's output,
  region 2's by those and both.
-/
import proofs.«132436_j89249420411231_1_alg».proof.Proof.IdealRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

variable (m : (ℓ : Loc nD τ sig) → Buf (Elt Ideal) ℓ)

/-- An assignment of the regions' outputs with the three named arrays at given contents (the launch contents elsewhere). -/
def outsOf (X0 : (c : Dev nD) → Buf (Elt Ideal) ((c : Thread nD τ).loc main_v1))
    (X1 : (c : Dev nD) → Buf (Elt Ideal) ((c : Thread nD τ).loc main_v3))
    (X2 : (c : Dev nD) → Buf (Elt Ideal) ((c : Thread nD τ).loc main_v22)) : Outs (F := Ideal) :=
  fun _ r c => if h1 : r = main_v1 then h1 ▸ X0 c else if h3 : r = main_v3 then h3 ▸ X1 c
    else if h22 : r = main_v22 then h22 ▸ X2 c else m ((c : Thread nD τ).loc r)

variable (X0 : (c : Dev nD) → Buf (Elt Ideal) ((c : Thread nD τ).loc main_v1))
    (X1 : (c : Dev nD) → Buf (Elt Ideal) ((c : Thread nD τ).loc main_v3))
    (X2 : (c : Dev nD) → Buf (Elt Ideal) ((c : Thread nD τ).loc main_v22))

theorem outsOf_v1 (J : ℕ) (c : Dev nD) : outsOf m X0 X1 X2 J main_v1 c = X0 c := by
  unfold outsOf; rw [dif_pos rfl]
theorem outsOf_v3 (J : ℕ) (c : Dev nD) : outsOf m X0 X1 X2 J main_v3 c = X1 c := by
  unfold outsOf; rw [dif_neg (by decide), dif_pos rfl]
theorem outsOf_v22 (J : ℕ) (c : Dev nD) : outsOf m X0 X1 X2 J main_v22 c = X2 c := by
  unfold outsOf; rw [dif_neg (by decide), dif_neg (by decide), dif_pos rfl]

/-- The valuation before region 1 reads the unknowns at region 0's output only. -/
theorem V3_congr (o o' : Outs (F := Ideal)) (h : ∀ c, o 2 main_v1 c = o' 2 main_v1 c) (c : Dev nD) : V3 m o c = V3 m o' c := by
  show StableHlo.after hostOps1 (Function.update (V1 m c) main_v1 (o 2 main_v1 c)) = StableHlo.after hostOps1 (Function.update (V1 m c) main_v1 (o' 2 main_v1 c))
  rw [h c]

/-- The valuation before region 2 reads them at the first two regions' outputs only. -/
theorem V9_congr (o o' : Outs (F := Ideal)) (h2 : ∀ c, o 2 main_v1 c = o' 2 main_v1 c) (h4 : ∀ c, o 4 main_v3 c = o' 4 main_v3 c)
    (c : Dev nD) : V9 m o c = V9 m o' c := by
  show StableHlo.after hostOps2_4 (StableHlo.after hostOps2_3 (StableHlo.after hostOps2_2 (StableHlo.after hostOps2_1 (StableHlo.after hostOps2
      (Function.update (V3 m o c) main_v3 (o 4 main_v3 c))))))
    = StableHlo.after hostOps2_4 (StableHlo.after hostOps2_3 (StableHlo.after hostOps2_2 (StableHlo.after hostOps2_1 (StableHlo.after hostOps2
      (Function.update (V3 m o' c) main_v3 (o' 4 main_v3 c))))))
  rw [V3_congr m o o' h2 c, h4 c]

/-- THE UNKNOWNS EXIST. -/
theorem outs_exist : ∃ outs : Outs (F := Ideal), OutsOk m outs := by
  let Y0 : (c : Dev nD) → Buf (Elt Ideal) ((c : Thread nD τ).loc main_v1) := fun c => (dat0 (VV1 m) c).arrAt 3 cfg0.N
  let D1 : (c : Dev nD) → Buf (Elt Ideal) ((c : Thread nD τ).loc main_v3) := fun c => m ((c : Thread nD τ).loc main_v3)
  let D2 : (c : Dev nD) → Buf (Elt Ideal) ((c : Thread nD τ).loc main_v22) := fun c => m ((c : Thread nD τ).loc main_v22)
  let oA : Outs (F := Ideal) := outsOf m Y0 D1 D2
  let Y1 : (c : Dev nD) → Buf (Elt Ideal) ((c : Thread nD τ).loc main_v3) := fun c => (dat1 (VV3 m oA) c).arrAt 3 cfg1.N
  let oB : Outs (F := Ideal) := outsOf m Y0 Y1 D2
  let Y2 : (c : Dev nD) → Buf (Elt Ideal) ((c : Thread nD τ).loc main_v22) := fun c => (dat2 (VV9 m oB) c).arrAt 6 cfg2.N
  refine ⟨outsOf m Y0 Y1 Y2, ⟨fun c => outsOf_v1 m Y0 Y1 Y2 2 c, fun c => ?_, fun c => ?_⟩⟩
  · have e : VV3 m (outsOf m Y0 Y1 Y2) = VV3 m oA := funext fun c' => funext fun b =>
      congrFun (V3_congr m _ _ (fun c'' => (outsOf_v1 m Y0 Y1 Y2 2 c'').trans (outsOf_v1 m Y0 D1 D2 2 c'').symm) c') b
    rw [e]; exact outsOf_v3 m Y0 Y1 Y2 4 c
  · have e : VV9 m (outsOf m Y0 Y1 Y2) = VV9 m oB := funext fun c' => funext fun b =>
      congrFun (V9_congr m _ _ (fun c'' => (outsOf_v1 m Y0 Y1 Y2 2 c'').trans (outsOf_v1 m Y0 Y1 D2 2 c'').symm)
        (fun c'' => (outsOf_v3 m Y0 Y1 Y2 4 c'').trans (outsOf_v3 m Y0 Y1 D2 4 c'').symm) c') b
    rw [e]; exact outsOf_v22 m Y0 Y1 Y2 10 c

end Cert.KernelIdeal.Hand

end
-- ==== Proof.lean ====
/-
  The certificate's five claims.

  The kernel program computes two linear layers x·W + b over row blocks, gathers their rows at row numbers read from
  two integer arrays, and runs a fused edge network (leaky rectifier of the sum, two 128×128 layers with bias and
  rectifier) over blocks of 4096 rows of the gathered arrays, the last block cut at the arrays' end; the result is
  column 0 of the network's output. The reference computes the same function with whole-array operations. On the
  extended reals both results are, entry by entry, one function of the twelve argument arrays (no algebraic law is
  needed beyond reading each sum at its index; finiteness of the inputs is not used).

  The frames: the word-level kernel program's through relational proof data (its regions' outputs are not named); the
  idealized kernel program's as a by-product of its run with the result named; the reference's from its run.
-/
import proofs.«132436_j89249420411231_1_alg».proof.Defs
import proofs.«132436_j89249420411231_1_alg».proof.Proof.Gen.Kernel
import proofs.«132436_j89249420411231_1_alg».proof.Proof.Gen.KernelIdeal
import proofs.«132436_j89249420411231_1_alg».proof.Proof.Gen.ReferenceIdeal
import proofs.«132436_j89249420411231_1_alg».proof.Proof.Gen.Pre_finite_inputs
import proofs.«132436_j89249420411231_1_alg».proof.Proof.KernelFrame
import proofs.«132436_j89249420411231_1_alg».proof.Proof.ValMain
import proofs.«132436_j89249420411231_1_alg».proof.Proof.OutsExist
import proofs.«132436_j89249420411231_1_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel program's frame. -/
theorem frame_k : Cert.frame_Kernel (hKernel := Cert.Kernel.Gen.facts) (hPre_finite_inputs := Cert.Pre_finite_inputs.Gen.facts) :=
  fun m ρ _ => Cert.Kernel.Hand.frame m ρ

/-- The idealized kernel program's frame: its run with the result dropped. -/
theorem frame_ki : Cert.frame_KernelIdeal (hKernelIdeal := Cert.KernelIdeal.Gen.facts) (hPre_finite_inputs := Cert.Pre_finite_inputs.Gen.facts) := by
  intro m ρ _
  obtain ⟨outs, hO⟩ := Cert.KernelIdeal.Hand.outs_exist m
  exact (θ_run (Cert.KernelIdeal.defs (F := Ideal)) _ _).mono (fun _ h c => (h c).2) (Cert.KernelIdeal.Hand.run_main m outs hO ρ)

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.Hand.ref_run m ρ)

/-- The ideal pass rewrote nothing. -/
theorem preserves : Cert.preserves_Kernel_KernelIdeal := trivial

/-- Both idealized programs end with the result at the specification's function of the argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  obtain ⟨outs, hO⟩ := Cert.KernelIdeal.Hand.outs_exist m
  refine ⟨fun c => Cert.ReferenceIdeal.Hand.specOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run (Cert.KernelIdeal.defs (F := Ideal)) _ _).mono
      (fun _ h c => ⟨(h c).1.trans (Cert.KernelIdeal.Hand.kernel_val m outs hO c), (h c).2⟩)
      (Cert.KernelIdeal.Hand.run_main m outs hO ρ)
  · refine (θ_run (Cert.ReferenceIdeal.defs (F := Ideal)) _ _).mono (fun _ h c => ⟨(h c).1.trans ?_, (h c).2⟩)
      (Cert.ReferenceIdeal.Hand.ref_run m' ρ')
    obtain ⟨e0, e1, e2, e3, e4, e5, e6, e7, e8, e9, e10, e11⟩ := hagree c
    rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
